-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x96 : Shape := ⟨2, ![800000, 96]⟩
abbrev S64x64 : Shape := ⟨2, ![64, 64]⟩
abbrev S50000 : Shape := ⟨1, ![50000]⟩
abbrev S288x256 : Shape := ⟨2, ![288, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S64x64 : S_.BroadcastsInDim S64x64 (![] : Fin 0 → Fin S64x64.rank)
  reducesTo_S64x64_S_d0_1 : S64x64.ReducesTo [0, 1] S_
  bcast_S_S288x256 : S_.BroadcastsInDim S288x256 (![] : Fin 0 → Fin S288x256.rank)
  reducesTo_S288x256_S_d0_1 : S288x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S256 .f32) (main_arg7 : FVec F S256 .f32) (main_arg8 : FVec F S256 .f32) (main_arg9 : FVec F S256x128 .f32) (main_arg10 : FVec F S128 .f32) (main_v13 : IVec S_ 1) (main_v16 : IVec S288x256 1) : IVec S_ 1 :=
  let main_c_5 : IVec S_ 1 := constantI S_ 1 1#1
  let main_v17 : IVec S_ 1 := (fun x v => Host.reduce IntOp.andi x v reducesTo_S288x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : FVec F S800000x96 .f32) (main_arg3 : FVec F S64x64 .f32) (main_arg4 : IVec S50000 32) (main_arg5 : FVec F S288x256 .f32) (main_arg6 : FVec F S256 .f32) (main_arg7 : FVec F S256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x96 .f32 := Host.absf main_arg2
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S288x256 .f32 := Host.absf main_arg5
  let main_cst_4 : FVec F S_ .f32 := constant S_ .f32 0x7F800000#32
  let main_v15 : FVec F S288x256 .f32 := broadcastInDim S288x256 ![] bcast_S_S288x256 main_cst_4
  let main_v16 : IVec S288x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x96 : Shape := ⟨2, ![800000, 96]⟩
abbrev S64x64 : Shape := ⟨2, ![64, 64]⟩
abbrev S50000 : Shape := ⟨1, ![50000]⟩
abbrev S288x256 : Shape := ⟨2, ![288, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x97 : Shape := ⟨2, ![800000, 97]⟩
abbrev S50000x97 : Shape := ⟨2, ![50000, 97]⟩
abbrev S50000x96 : Shape := ⟨2, ![50000, 96]⟩
abbrev S50000x1 : Shape := ⟨2, ![50000, 1]⟩
abbrev S50000x64 : Shape := ⟨2, ![50000, 64]⟩
abbrev S128x256 : Shape := ⟨2, ![128, 256]⟩
abbrev S96x256 : Shape := ⟨2, ![96, 256]⟩
abbrev S64x256 : Shape := ⟨2, ![64, 256]⟩
abbrev S1x256 : Shape := ⟨2, ![1, 256]⟩
abbrev S50000x256 : Shape := ⟨2, ![50000, 256]⟩
abbrev S10x1x256 : Shape := ⟨3, ![10, 1, 256]⟩
abbrev S5000x128 : Shape := ⟨2, ![5000, 128]⟩
abbrev S5000x96 : Shape := ⟨2, ![5000, 96]⟩
abbrev S5000x64 : Shape := ⟨2, ![5000, 64]⟩
abbrev S5000x256 : Shape := ⟨2, ![5000, 256]⟩
abbrev S1x1x256 : Shape := ⟨3, ![1, 1, 256]⟩
abbrev S1x128 : Shape := ⟨2, ![1, 128]⟩

abbrev nBuf : Space → Nat
  | .hbm => 61
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x96, .f32⟩
  | .hbm, ⟨3, _⟩ => ⟨S64x64, .f32⟩
  | .hbm, ⟨4, _⟩ => ⟨S50000, .i32⟩
  | .hbm, ⟨5, _⟩ => ⟨S288x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000x1, .f32⟩
  | .hbm, ⟨15, _⟩ => ⟨S800000x97, .f32⟩
  | .hbm, ⟨16, _⟩ => ⟨S_, .f32⟩
  | .hbm, ⟨17, _⟩ => ⟨S50000x97, .f32⟩
  | .hbm, ⟨18, _⟩ => ⟨S800000x1, .i32⟩
  | .hbm, ⟨19, _⟩ => ⟨S50000x97, .f32⟩
  | .hbm, ⟨20, _⟩ => ⟨S50000x96, .f32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S50000x96, .f32⟩
  | .hbm, ⟨26, _⟩ => ⟨S50000x96, .f32⟩
  | .hbm, ⟨27, _⟩ => ⟨S_, .i32⟩
  | .hbm, ⟨28, _⟩ => ⟨S50000, .i32⟩
  | .hbm, ⟨29, _⟩ => ⟨S50000, .i1⟩
  | .hbm, ⟨30, _⟩ => ⟨S_, .i32⟩
  | .hbm, ⟨31, _⟩ => ⟨S50000, .i32⟩
  | .hbm, ⟨32, _⟩ => ⟨S50000, .i32⟩
  | .hbm, ⟨33, _⟩ => ⟨S50000, .i32⟩
  | .hbm, ⟨34, _⟩ => ⟨S50000x1, .i32⟩
  | .hbm, ⟨35, _⟩ => ⟨S50000x64, .f32⟩
  | .hbm, ⟨36, _⟩ => ⟨S128x256, .f32⟩
  | .hbm, ⟨37, _⟩ => ⟨S96x256, .f32⟩
  | .hbm, ⟨38, _⟩ => ⟨S64x256, .f32⟩
  | .hbm, ⟨39, _⟩ => ⟨S1x256, .f32⟩
  | .hbm, ⟨40, _⟩ => ⟨S50000x256, .bf16⟩
  | .hbm, ⟨41, _⟩ => ⟨S10x1x256, .f32⟩
  | .hbm, ⟨42, _⟩ => ⟨S10x1x256, .f32⟩
  | .hbm, ⟨43, _⟩ => ⟨S_, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x128, .f32⟩
  | .hbm, ⟨60, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x96, .f32⟩
  | .local _ .vmem, ⟨3, _⟩ => ⟨S5000x96, .f32⟩
  | .local _ .vmem, ⟨4, _⟩ => ⟨S5000x64, .f32⟩
  | .local _ .vmem, ⟨5, _⟩ => ⟨S5000x64, .f32⟩
  | .local _ .vmem, ⟨6, _⟩ => ⟨S128x256, .f32⟩
  | .local _ .vmem, ⟨7, _⟩ => ⟨S96x256, .f32⟩
  | .local _ .vmem, ⟨8, _⟩ => ⟨S64x256, .f32⟩
  | .local _ .vmem, ⟨9, _⟩ => ⟨S1x256, .f32⟩
  | .local _ .vmem, ⟨10, _⟩ => ⟨S5000x256, .bf16⟩
  | .local _ .vmem, ⟨11, _⟩ => ⟨S5000x256, .bf16⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S5000x256, .bf16⟩
  | .local _ .vmem, ⟨17, _⟩ => ⟨S5000x256, .bf16⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_cst_3 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_1_0 : S2x800000.Slices ![1, 0] S1x800000
  shapeCasts_S1x800000_S800000 : S1x800000.ShapeCasts S800000
  bcast_S_S800000x1 : S_.BroadcastsInDim S800000x1 (![] : Fin 0 → Fin S800000x1.rank)
  concatenates_S800000x96_S800000x1_S800000x97_d1 : Shape.Concatenates [S800000x96, S800000x1] S800000x97 1
  bcast_S_S50000x97 : S_.BroadcastsInDim S50000x97 (![] : Fin 0 → Fin S50000x97.rank)
  bcast_S800000_S800000x1_0 : S800000.BroadcastsInDim S800000x1 (![0] : Fin 1 → Fin S800000x1.rank)
  slices_S50000x97_S50000x96_0_0 : S50000x97.Slices ![0, 0] S50000x96
  slices_S50000x97_S50000x1_0_96 : S50000x97.Slices ![0, 96] S50000x1
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  slices_S288x256_S128x256_0_0 : S288x256.Slices ![0, 0] S128x256
  slices_S288x256_S96x256_128_0 : S288x256.Slices ![128, 0] S96x256
  slices_S288x256_S64x256_224_0 : S288x256.Slices ![224, 0] S64x256
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x256_S96x256_0_0 : ∀ a, (![0, 0] : Fin 2 → Nat) a + S96x256.size a ≤ S96x256.size a
  h_S96x256 : 0 < S96x256.numel
  shapeCasts_S96x256_S96x256 : S96x256.ShapeCasts S96x256
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  reduces_S5000x256_S256 : S5000x256.Reduces [0] S256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S10x1x256_S256_d0_1 : S10x1x256.ReducesTo [0, 1] S256
  h_S_ : 0 < S_.numel
  bcast_S_S256 : S_.BroadcastsInDim S256 (![] : Fin 0 → Fin S256.rank)
  shapeCasts_S128_S1x128 : S128.ShapeCasts S1x128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000x97_S800000x1_S800000x97_1_0_0_1_wf : ScatterDims.WF S50000x97 S800000x1 S800000x97 [1] [0] [0] 1
  gather_S64x64_S50000x1_S50000x64_1_0_n_n_0_1_164_wf : GatherDims.WF S64x64 S50000x1 S50000x64 [1] [0] [] [0] [] 1 ![1, 64]
  dot_S5000x128_S128x256_S5000x256_1_0_0_1_n_n_wf : DotDims.WF S5000x128 S128x256 S5000x256 [1] [0] [0] [1] [] []
  dot_S5000x96_S96x256_S5000x256_1_0_0_1_n_n_wf : DotDims.WF S5000x96 S96x256 S5000x256 [1] [0] [0] [1] [] []
  dot_S5000x64_S64x256_S5000x256_1_0_0_1_n_n_wf : DotDims.WF S5000x64 S64x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x256.size a ≤ S96x256.size a
  hwx0_4 : ∀ i : grid0.Coords, EltTy.bits .f32 = 32 ∨ (Rect.block (s := S96x256) S96x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x256.size a ≤ S50000x256.size a
  hwx0_7 : ∀ i : grid0.Coords, EltTy.bits .bf16 = 32 ∨ (Rect.block (s := S50000x256) S5000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x256.size a ≤ S10x1x256.size a
  hwx0_8 : ∀ i : grid0.Coords, EltTy.bits .f32 = 32 ∨ (Rect.block (s := S10x1x256) S1x1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x256.size a ≤ S10x1x256.size a
  hwx0_9 : ∀ i : grid0.Coords, EltTy.bits .f32 = 32 ∨ (Rect.block (s := S10x1x256) S1x1x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def scatter_S50000x97_S800000x1_S800000x97_1_0_0_1 : ScatterDims S50000x97 S800000x1 S800000x97 where
  updateWindowDims := [1]
  insertedWindowDims := [0]
  scatterDimsToOperandDims := [0]
  indexVectorDim := 1
  wf := scatter_S50000x97_S800000x1_S800000x97_1_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x96_S96x256_S5000x256_1_0_0_1_n_n : DotDims S5000x96 S96x256 S5000x256 where
  lhsContracting := [1]
  rhsContracting := [0]
  lhsNonContracting := [0]
  rhsNonContracting := [1]
  lhsBatch := []
  rhsBatch := []
  wf := dot_S5000x96_S96x256_S5000x256_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S96x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S5000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S1x1x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v24_2) S1x1x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v24_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x96 : Shape := ⟨2, ![800000, 96]⟩
abbrev S64x64 : Shape := ⟨2, ![64, 64]⟩
abbrev S50000 : Shape := ⟨1, ![50000]⟩
abbrev S288x256 : Shape := ⟨2, ![288, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000x96 : Shape := ⟨2, ![50000, 96]⟩
abbrev S800000x1 : Shape := ⟨2, ![800000, 1]⟩
abbrev S50000x1 : Shape := ⟨2, ![50000, 1]⟩
abbrev S50000x64 : Shape := ⟨2, ![50000, 64]⟩
abbrev S50000x288 : Shape := ⟨2, ![50000, 288]⟩
abbrev S50000x256 : Shape := ⟨2, ![50000, 256]⟩
abbrev S1x256 : Shape := ⟨2, ![1, 256]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x96, .f32⟩
  | .hbm, ⟨3, _⟩ => ⟨S64x64, .f32⟩
  | .hbm, ⟨4, _⟩ => ⟨S50000, .i32⟩
  | .hbm, ⟨5, _⟩ => ⟨S288x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000x96, .f32⟩
  | .hbm, ⟨15, _⟩ => ⟨S800000x1, .i32⟩
  | .hbm, ⟨16, _⟩ => ⟨S50000x96, .f32⟩
  | .hbm, ⟨17, _⟩ => ⟨S_, .f32⟩
  | .hbm, ⟨18, _⟩ => ⟨S800000x1, .f32⟩
  | .hbm, ⟨19, _⟩ => ⟨S_, .f32⟩
  | .hbm, ⟨20, _⟩ => ⟨S50000x1, .f32⟩
  | .hbm, ⟨21, _⟩ => ⟨S800000x1, .i32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S50000x96, .f32⟩
  | .hbm, ⟨27, _⟩ => ⟨S50000x96, .f32⟩
  | .hbm, ⟨28, _⟩ => ⟨S_, .i32⟩
  | .hbm, ⟨29, _⟩ => ⟨S50000, .i32⟩
  | .hbm, ⟨30, _⟩ => ⟨S50000, .i1⟩
  | .hbm, ⟨31, _⟩ => ⟨S_, .i32⟩
  | .hbm, ⟨32, _⟩ => ⟨S50000, .i32⟩
  | .hbm, ⟨33, _⟩ => ⟨S50000, .i32⟩
  | .hbm, ⟨34, _⟩ => ⟨S50000, .i32⟩
  | .hbm, ⟨35, _⟩ => ⟨S50000x1, .i32⟩
  | .hbm, ⟨36, _⟩ => ⟨S50000x64, .f32⟩
  | .hbm, ⟨37, _⟩ => ⟨S50000x288, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S1x256, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call0_cst : Ref sig .tc := ⟨.hbm, 72, rfl⟩
abbrev main_call0_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x96 : S_.BroadcastsInDim S50000x96 (![] : Fin 0 → Fin S50000x96.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x96_0_1 : S50000x1.BroadcastsInDim S50000x96 (![0, 1] : Fin 2 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x96_S50000x64_S50000x288_d1 : Shape.Concatenates [S50000x128, S50000x96, S50000x64] S50000x288 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x96_S800000x1_S800000x96_1_0_0_1_wf : ScatterDims.WF S50000x96 S800000x1 S800000x96 [1] [0] [0] 1
  scatter_S50000x1_S800000x1_S800000x1_1_0_0_1_wf : ScatterDims.WF S50000x1 S800000x1 S800000x1 [1] [0] [0] 1
  gather_S64x64_S50000x1_S50000x64_1_0_n_n_0_1_164_wf : GatherDims.WF S64x64 S50000x1 S50000x64 [1] [0] [] [0] [] 1 ![1, 64]
  dot_S50000x288_S288x256_S50000x256_1_0_0_1_n_n_wf : DotDims.WF S50000x288 S288x256 S50000x256 [1] [0] [0] [1] [] []
  dot_S50000x256_S256x128_S50000x128_1_0_0_1_n_n_wf : DotDims.WF S50000x256 S256x128 S50000x128 [1] [0] [0] [1] [] []

variable [Facts₀]

def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def dot_S50000x288_S288x256_S50000x256_1_0_0_1_n_n : DotDims S50000x288 S288x256 S50000x256 where
  lhsContracting := [1]
  rhsContracting := [0]
  lhsNonContracting := [0]
  rhsNonContracting := [1]
  lhsBatch := []
  rhsBatch := []
  wf := dot_S50000x288_S288x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The idealized kernel program's run with its RESULT ARRAY named.

  The program is four segments: a stretch of host operations, the first tiled region, a second stretch, the second
  tiled region.  Every weakly fair execution from the launch memory terminates without a fault; at the end every
  unscoped buffer holds the contents of the last segment boundary, which are a fold through the segments from the
  launch memory: each host stretch's operations applied in order, each region's arrays at what its write-backs
  leave.  Read at the result buffer this names the result; read at an argument it is the argument as launched.
-/
import proofs.«161687_j6279242186980_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents of it, and every argument array ends as launched. -/
theorem run_named : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Run

end
-- ==== Proof.Spec.lean ====
/-
  The node model as mathematics, on the extended reals.

  Nodes r < 50000, edges e < 800000, an edge's target node `col e` (an integer; an edge whose target is not a node
  contributes nowhere).  The scatter-mean of the edge features into the nodes, the first linear layer on the three
  joined feature groups, the batch statistics over all 50000 rows, normalisation, the positive part, and the second
  linear layer.

  The first layer is written twice: as ONE product over the 288 joined columns, and as the SUM OF THREE products over
  the 128, 96 and 64 columns of each group.  The batch statistics are written twice: the mean of the squared
  deviations over all rows, and — from per-block partial sums over 10 blocks of 5000 rows — the mean of the squares
  less the square of the mean.  The laws joining each pair are in SpecLaws.
-/
import Mathlib.Data.EReal.Operations
import Mathlib.Algebra.BigOperators.Fin
import Idealize.ShloMosaic.PureOps.Ideal

noncomputable section

open scoped BigOperators

namespace Cert.Spec

open Idealize.ShloMosaic

/-- The float words the two programs spell: zero, one, the row count 50000 and the stabiliser (about 1e-5). -/
abbrev w0 : EReal := Ideal.ofBits .f32 0x00000000#32
abbrev w1 : EReal := Ideal.ofBits .f32 0x3F800000#32
abbrev wN : EReal := Ideal.ofBits .f32 0x47435000#32
abbrev wEps : EReal := Ideal.ofBits .f32 0x3727C5AC#32

/-- Row `k` of block `t` (10 blocks of 5000 rows) is row `t * 5000 + k` of the whole. -/
def row (t : Fin 10) (k : Fin 5000) : Fin 50000 := ⟨t.val * 5000 + k.val, by omega⟩

/-- A segment sum from a zero start: the zero word plus, over the edges whose target is node `n`, the sum of `f e`. -/
def segSum (col : Fin 800000 → ℤ) (f : Fin 800000 → EReal) (n : Fin 50000) : EReal :=
  w0 + ∑ e : Fin 800000, if col e = (n.val : ℤ) then f e else 0

/-- The scatter-mean: node `n`'s summed edge feature `k` over its edge count, the count taken as at least one. -/
def eAggr (col : Fin 800000 → ℤ) (ea : Fin 800000 → Fin 96 → EReal) (n : Fin 50000) (k : Fin 96) : EReal :=
  Ideal.div (segSum col (fun e => ea e k) n) (max (segSum col (fun _ => w1) n) w1)

/-- The first linear layer as the sum of three products, one per feature group, plus the bias. -/
def lin3 (x : Fin 50000 → Fin 128 → EReal) (e : Fin 50000 → Fin 96 → EReal) (g : Fin 50000 → Fin 64 → EReal)
    (wx : Fin 128 → Fin 256 → EReal) (we : Fin 96 → Fin 256 → EReal) (wg : Fin 64 → Fin 256 → EReal)
    (b1 : Fin 256 → EReal) (r : Fin 50000) (j : Fin 256) : EReal :=
  (∑ k : Fin 128, x r k * wx k j) + (∑ k : Fin 96, e r k * we k j) + (∑ k : Fin 64, g r k * wg k j) + b1 j

/-- The three feature groups joined along the columns: 128, then 96, then 64. -/
def cat (x : Fin 50000 → Fin 128 → EReal) (e : Fin 50000 → Fin 96 → EReal) (g : Fin 50000 → Fin 64 → EReal)
    (r : Fin 50000) (k : Fin 288) : EReal :=
  if h : k.val < 128 then x r ⟨k.val, h⟩
  else if h' : k.val < 224 then e r ⟨k.val - 128, by omega⟩
  else g r ⟨k.val - 224, by omega⟩

/-- The first linear layer as one product over the 288 joined columns, plus the bias. -/
def lin1 (x : Fin 50000 → Fin 128 → EReal) (e : Fin 50000 → Fin 96 → EReal) (g : Fin 50000 → Fin 64 → EReal)
    (W1 : Fin 288 → Fin 256 → EReal) (b1 : Fin 256 → EReal) (r : Fin 50000) (j : Fin 256) : EReal :=
  (∑ k : Fin 288, cat x e g r k * W1 k j) + b1 j

/-- Block `t`'s partial column sum. -/
def partSum (h : Fin 50000 → Fin 256 → EReal) (t : Fin 10) (j : Fin 256) : EReal :=
  ∑ k : Fin 5000, h (row t k) j

/-- Block `t`'s partial column sum of squares. -/
def partSumSq (h : Fin 50000 → Fin 256 → EReal) (t : Fin 10) (j : Fin 256) : EReal :=
  ∑ k : Fin 5000, h (row t k) j * h (row t k) j

/-- The column mean from the 10 partial sums (from a zero start), over the row count. -/
def meanOfParts (sp : Fin 10 → Fin 256 → EReal) (j : Fin 256) : EReal :=
  Ideal.div (w0 + ∑ t : Fin 10, sp t j) wN

/-- The column variance from the partial sums: the mean of the squares less the square of the mean. -/
def varOfParts (sp ssp : Fin 10 → Fin 256 → EReal) (j : Fin 256) : EReal :=
  Ideal.div (w0 + ∑ t : Fin 10, ssp t j) wN - meanOfParts sp j * meanOfParts sp j

/-- The column mean over all rows (from a zero start). -/
def meanAll (h : Fin 50000 → Fin 256 → EReal) (j : Fin 256) : EReal :=
  Ideal.div (w0 + ∑ r : Fin 50000, h r j) wN

/-- The column variance over all rows: the mean of the squared deviations from the mean. -/
def varAll (h : Fin 50000 → Fin 256 → EReal) (j : Fin 256) : EReal :=
  Ideal.div (w0 + ∑ r : Fin 50000, (h r j - meanAll h j) * (h r j - meanAll h j)) wN

/-- Normalise with the given statistics, scale and shift, take the positive part, apply the second linear layer. -/
def outOf (h : Fin 50000 → Fin 256 → EReal) (mean var gam bet : Fin 256 → EReal)
    (W2 : Fin 256 → Fin 128 → EReal) (b2 : Fin 128 → EReal) (r : Fin 50000) (q : Fin 128) : EReal :=
  (∑ j : Fin 256, max ((h r j - mean j) * Ideal.rsqrt (var j + wEps) * gam j + bet j) w0 * W2 j q) + b2 q

end Cert.Spec

end
-- ==== Proof.LibReal.lean ====
/-
  The real-number layer under the extended reals.

  An extended real is REAL when it is the image of a real number (neither infinity).  Sums, products, differences,
  maxima, quotients by a nonzero real and reciprocal square roots of positive reals of real values are real; the three
  float words the programs spell denote real numbers.  On real values the extended-real arithmetic is the arithmetic
  of the reals, so the textbook identity

      (1/N) ∑ (z r - m)² = (1/N) ∑ (z r)² - m²,      m = (1/N) ∑ z r,   N = the number of terms,

  holds for extended reals z r that are all real (it fails at the infinities, where a difference may be junk), and
  its left side is the image of a nonnegative real.
-/
import Mathlib.Data.EReal.Operations
import Mathlib.Data.EReal.Inv
import Mathlib.Analysis.SpecialFunctions.Pow.Real
import Idealize.ShloMosaic.PureOps.Ideal
import Idealize.ShloMosaic.PureOps.Ideal.Laws

noncomputable section

open scoped BigOperators

namespace Cert.Lib

open Idealize.ShloMosaic

/-- An extended real that is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real value is neither infinity. -/
theorem IsReal.ne_top {x : EReal} (h : IsReal x) : x ≠ ⊤ := by
  obtain ⟨a, rfl⟩ := h; exact EReal.coe_ne_top a

theorem IsReal.ne_bot {x : EReal} (h : IsReal x) : x ≠ ⊥ := by
  obtain ⟨a, rfl⟩ := h; exact EReal.coe_ne_bot a

/-- An extended real that is neither infinity is real. -/
theorem isReal_of_ne {x : EReal} (hb : x ≠ ⊥) (ht : x ≠ ⊤) : IsReal x := by
  induction x using EReal.rec with
  | bot => exact absurd rfl hb
  | coe a => exact ⟨a, rfl⟩
  | top => exact absurd rfl ht

/-- The sum of two real values is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real values is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real value is real. -/
theorem IsReal.neg {x : EReal} (hx : IsReal x) : IsReal (-x) := by
  obtain ⟨a, rfl⟩ := hx; exact ⟨-a, (EReal.coe_neg a).symm⟩

/-- The difference of two real values is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The maximum of two real values is real. -/
theorem IsReal.max {x y : EReal} (hx : IsReal x) (hy : IsReal y) : IsReal (max x y) := by
  rcases le_total x y with h | h
  · rw [max_eq_right h]; exact hy
  · rw [max_eq_left h]; exact hx

/-- The minimum of two real values is real. -/
theorem IsReal.min {x y : EReal} (hx : IsReal x) (hy : IsReal y) : IsReal (min x y) := by
  rcases le_total x y with h | h
  · rw [min_eq_left h]; exact hx
  · rw [min_eq_right h]; exact hy

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real values is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of real values over a whole finite type is real. -/
theorem IsReal.sum_univ {ι : Type*} [Fintype ι] (f : ι → EReal) (h : ∀ i, IsReal (f i)) :
    IsReal (∑ i, f i) := IsReal.sum _ f fun i _ => h i

/-- The quotient of the images of two reals, the divisor nonzero, is the image of the quotient. -/
theorem div_coe_coe (a : ℝ) {d : ℝ} (hd : d ≠ 0) :
    Ideal.div (a : EReal) (d : EReal) = ((a / d : ℝ) : EReal) := by
  rw [Ideal.div_coe hd, ← EReal.coe_mul, mul_one_div]

/-- The quotient of a real value by a nonzero real is real. -/
theorem IsReal.div_coe {x : EReal} (hx : IsReal x) {d : ℝ} (hd : d ≠ 0) : IsReal (Ideal.div x (d : EReal)) := by
  obtain ⟨a, rfl⟩ := hx; exact ⟨a / d, div_coe_coe a hd⟩

/-- The reciprocal square root of a positive real is the image of the reciprocal of its square root. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_pos {v : ℝ} (hv : 0 < v) : IsReal (Ideal.rsqrt (v : EReal)) :=
  ⟨_, rsqrt_coe_pos hv⟩

/-- The reciprocal square root of a nonnegative real plus a positive real is real. -/
theorem isReal_rsqrt_add_pos {v e : ℝ} (hv : 0 ≤ v) (he : 0 < e) :
    IsReal (Ideal.rsqrt ((v : EReal) + (e : EReal))) := by
  rw [← EReal.coe_add]; exact isReal_rsqrt_pos (by linarith)

/-- The word `0x47435000` denotes the real `50000`. -/
theorem ofBits_50000 : Ideal.ofBits .f32 0x47435000#32 = ((50000 : ℝ) : EReal) := by
  simp [Ideal.ofBits, Ideal.ieee, -EReal.coe_mul]; norm_num

/-- The word `0x3727C5AC` (about `1e-5`) denotes a positive real. -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The word `0x3727C5AC` denotes a real. -/
theorem isReal_ofBits_eps : IsReal (Ideal.ofBits .f32 0x3727C5AC#32) := by
  obtain ⟨e, _, h⟩ := ofBits_eps_pos; exact ⟨e, h⟩

/-- The word `0x47435000` denotes a real. -/
theorem isReal_ofBits_50000 : IsReal (Ideal.ofBits .f32 0x47435000#32) := ⟨_, ofBits_50000⟩

/-- The word `0x00000000` denotes a real (zero). -/
theorem isReal_ofBits_zero : IsReal (Ideal.ofBits .f32 0x00000000#32) := by
  rw [Ideal.ofBits_zero_f32]; exact isReal_zero

/-- Real witnesses of a family of real values. -/
theorem exists_real_family {ι : Type*} (z : ι → EReal) (hz : ∀ r, IsReal (z r)) :
    ∃ w : ι → ℝ, z = fun r => (w r : EReal) := by
  choose w hw using hz; exact ⟨w, funext hw⟩

/-- The identity among reals: the mean of the squared deviations from the mean is the mean of the squares less the
    square of the mean, when the divisor is the number of terms. -/
theorem real_var_identity {n : ℕ} (w : Fin n → ℝ) (N : ℝ) (hN : N ≠ 0) (hn : (n : ℝ) = N) :
    (∑ r, (w r - (∑ r, w r) / N) * (w r - (∑ r, w r) / N)) / N
      = (∑ r, w r * w r) / N - (∑ r, w r) / N * ((∑ r, w r) / N) := by
  have h1 : ∑ r, (w r - (∑ r, w r) / N) * (w r - (∑ r, w r) / N)
      = (∑ r, w r * w r) - 2 * ((∑ r, w r) / N) * (∑ r, w r) + N * ((∑ r, w r) / N * ((∑ r, w r) / N)) := by
    have h2 : ∀ r, (w r - (∑ r, w r) / N) * (w r - (∑ r, w r) / N)
        = w r * w r - 2 * ((∑ r, w r) / N) * w r + (∑ r, w r) / N * ((∑ r, w r) / N) := fun r => by ring
    simp only [h2]
    rw [Finset.sum_add_distrib, Finset.sum_sub_distrib, ← Finset.mul_sum, Finset.sum_const, Finset.card_univ,
      Fintype.card_fin, nsmul_eq_mul, hn]
  rw [h1]; field_simp; ring

/-- The variance identity on the extended reals, for real entries: with `mean = (∑ z) / N` and `N` the number of
    entries, `(∑ (z - mean)²) / N = (∑ z²) / N - mean²`. -/
theorem var_identity {n : ℕ} (z : Fin n → EReal) (hz : ∀ r, IsReal (z r)) (N : ℝ) (hN : N ≠ 0) (hn : (n : ℝ) = N) :
    Ideal.div (∑ r, (z r - Ideal.div (∑ r, z r) (N : EReal)) * (z r - Ideal.div (∑ r, z r) (N : EReal))) (N : EReal)
      = Ideal.div (∑ r, z r * z r) (N : EReal)
          - Ideal.div (∑ r, z r) (N : EReal) * Ideal.div (∑ r, z r) (N : EReal) := by
  obtain ⟨w, rfl⟩ := exists_real_family z hz
  simp only [← coe_finset_sum, div_coe_coe _ hN, ← EReal.coe_sub, ← EReal.coe_mul]
  rw [real_var_identity w N hN hn]

/-- The same identity with every sum spelled from a zero start, `0 + ∑`. -/
theorem var_identity_zero_add {n : ℕ} (z : Fin n → EReal) (hz : ∀ r, IsReal (z r)) (N : ℝ) (hN : N ≠ 0)
    (hn : (n : ℝ) = N) :
    Ideal.div (0 + ∑ r, (z r - Ideal.div (0 + ∑ r, z r) (N : EReal)) * (z r - Ideal.div (0 + ∑ r, z r) (N : EReal)))
        (N : EReal)
      = Ideal.div (0 + ∑ r, z r * z r) (N : EReal)
          - Ideal.div (0 + ∑ r, z r) (N : EReal) * Ideal.div (0 + ∑ r, z r) (N : EReal) := by
  simp only [zero_add]; exact var_identity z hz N hN hn

/-- The mean of the squared deviations of real entries is the image of a nonnegative real. -/
theorem var_nonneg {n : ℕ} (z : Fin n → EReal) (hz : ∀ r, IsReal (z r)) (N : ℝ) (hN : N ≠ 0) (hn : (n : ℝ) = N) :
    ∃ v : ℝ, 0 ≤ v ∧
      Ideal.div (∑ r, (z r - Ideal.div (∑ r, z r) (N : EReal)) * (z r - Ideal.div (∑ r, z r) (N : EReal))) (N : EReal)
        = (v : EReal) := by
  obtain ⟨w, rfl⟩ := exists_real_family z hz
  have hNpos : 0 < N := lt_of_le_of_ne (hn ▸ Nat.cast_nonneg n) (Ne.symm hN)
  simp only [← coe_finset_sum, div_coe_coe _ hN, ← EReal.coe_sub, ← EReal.coe_mul]
  exact ⟨_, div_nonneg (Finset.sum_nonneg fun r _ => mul_self_nonneg _) hNpos.le, rfl⟩

/-- The mean of the squares less the square of the mean, of real entries, is the image of a nonnegative real. -/
theorem var_nonneg' {n : ℕ} (z : Fin n → EReal) (hz : ∀ r, IsReal (z r)) (N : ℝ) (hN : N ≠ 0) (hn : (n : ℝ) = N) :
    ∃ v : ℝ, 0 ≤ v ∧
      Ideal.div (∑ r, z r * z r) (N : EReal)
          - Ideal.div (∑ r, z r) (N : EReal) * Ideal.div (∑ r, z r) (N : EReal) = (v : EReal) := by
  rw [← var_identity z hz N hN hn]; exact var_nonneg z hz N hN hn

/-- The reciprocal square root of a nonnegative real plus the stabiliser word `0x3727C5AC` is real. -/
theorem isReal_rsqrt_add_eps {x : EReal} (hx : ∃ v : ℝ, 0 ≤ v ∧ x = (v : EReal)) :
    IsReal (Ideal.rsqrt (x + Ideal.ofBits .f32 0x3727C5AC#32)) := by
  obtain ⟨v, hv, rfl⟩ := hx
  obtain ⟨e, he, h⟩ := ofBits_eps_pos
  rw [h]; exact isReal_rsqrt_add_pos hv he

end Cert.Lib

end
-- ==== Proof.LibBlockSum.lean ====
/-
  Regrouping a sum over `N * B` consecutive rows into `N` blocks of `B` rows, and a running sum as a finite sum.
  Both hold in any additive commutative monoid: they move and bracket terms and never cancel or distribute, so on the
  extended reals they need no finiteness.
-/
import Mathlib.Algebra.BigOperators.Fin
import Mathlib.Logic.Equiv.Fin.Basic

open scoped BigOperators

namespace Cert.Lib

/-- Row `k` of block `t`, counted from the start, is a row of the whole. -/
theorem blk_lt {N B : Nat} (t : Fin N) (k : Fin B) : t.val * B + k.val < N * B :=
  calc t.val * B + k.val < t.val * B + B := Nat.add_lt_add_left k.isLt _
    _ = (t.val + 1) * B := (Nat.succ_mul _ _).symm
    _ ≤ N * B := Nat.mul_le_mul_right _ t.isLt

/-- A sum over `n = N * B` rows is the sum over the `N` blocks of each block's sum over its `B` rows, row `k` of
    block `t` being row `t * B + k` of the whole. -/
theorem sum_blocks {M : Type*} [AddCommMonoid M] {n : Nat} (N B : Nat) (h : n = N * B) (f : Fin n → M) :
    ∑ r : Fin n, f r = ∑ t : Fin N, ∑ k : Fin B, f ⟨t.val * B + k.val, lt_of_lt_of_eq (blk_lt t k) h.symm⟩ := by
  subst h
  rw [← Fintype.sum_prod_type (f := fun p : Fin N × Fin B => f ⟨p.1.val * B + p.2.val, blk_lt p.1 p.2⟩)]
  refine (Fintype.sum_equiv finProdFinEquiv _ _ fun p => congrArg f (Fin.ext ?_)).symm
  show p.1.val * B + p.2.val = p.2.val + B * p.1.val
  rw [Nat.mul_comm, Nat.add_comm]

/-- The running sum that starts from `0 + s 0` and adds `s (n + 1)` at step `n + 1`. -/
def chain {M : Type*} [AddCommMonoid M] (s : ℕ → M) : ℕ → M
  | 0 => 0 + s 0
  | n + 1 => chain s n + s (n + 1)

/-- After step `n` the running sum is the sum of the first `n + 1` terms. -/
theorem chain_eq_sum {M : Type*} [AddCommMonoid M] (s : ℕ → M) (n : ℕ) :
    chain s n = ∑ t ∈ Finset.range (n + 1), s t := by
  induction n with
  | zero => simp [chain]
  | succ n ih => rw [chain, ih, Finset.sum_range_succ (n := n + 1)]

/-- The same, with the terms indexed by the `N = n + 1` blocks. -/
theorem chain_eq_sum_fin {M : Type*} [AddCommMonoid M] (s : ℕ → M) (N : ℕ) (hN : 0 < N) :
    chain s (N - 1) = ∑ t : Fin N, s t.val := by
  rw [chain_eq_sum, Nat.sub_add_cancel hN, Finset.sum_range]

end Cert.Lib
-- ==== Proof.SpecLaws.lean ====
/-
  The laws that join the two spellings of the node model (Spec).

  * A sum over the 288 joined columns is the sum of the sums over its 128, 96 and 64 columns: the first layer as one
    product is the first layer as three.  This only brackets terms, so it holds on all extended reals.
  * A sum over 50000 rows is the sum over 10 blocks of each block's 5000 rows: the mean from partial sums is the mean
    over all rows.  Again no finiteness is needed.
  * The mean of the squares less the square of the mean is the mean of the squared deviations.  This cancels terms and
    distributes a product over a sum, so it needs every entry REAL (neither infinity); it fails at the infinities.
  * Real inputs give real first-layer outputs: sums and products of reals are real, and the scatter-mean divides a
    real by a count that was raised to at least one.
-/
import proofs.«161687_j6279242186980_2_alg».proof.Proof.Spec
import proofs.«161687_j6279242186980_2_alg».proof.Proof.LibReal
import proofs.«161687_j6279242186980_2_alg».proof.Proof.LibBlockSum

noncomputable section

open scoped BigOperators

namespace Cert.Spec

open Idealize.ShloMosaic Cert.Lib

/-- A sum over 288 = 128 + 96 + 64 consecutive columns, group by group. -/
theorem sum_split3 {M : Type*} [AddCommMonoid M] (f : Fin 288 → M) :
    ∑ k : Fin 288, f k
      = (∑ k : Fin 128, f ⟨k.val, by omega⟩) + (∑ k : Fin 96, f ⟨128 + k.val, by omega⟩)
          + (∑ k : Fin 64, f ⟨224 + k.val, by omega⟩) := by
  have h1 := Fin.sum_univ_add (a := 128 + 96) (b := 64) (f := (f : Fin (128 + 96 + 64) → M))
  have h2 := Fin.sum_univ_add (a := 128) (b := 96)
    (f := fun i : Fin (128 + 96) => (f : Fin (128 + 96 + 64) → M) (Fin.castAdd 64 i))
  refine h1.trans ?_
  rw [h2]
  refine congrArg₂ (· + ·) (congrArg₂ (· + ·) ?_ ?_) ?_
  · exact Finset.sum_congr rfl fun k _ => congrArg f (Fin.ext rfl)
  · exact Finset.sum_congr rfl fun k _ => congrArg f (Fin.ext rfl)
  · exact Finset.sum_congr rfl fun k _ => congrArg f (Fin.ext (by show 128 + 96 + k.val = 224 + k.val; omega))

/-- The first layer as three products, on the three row groups of the weight matrix, is the first layer as one
    product over the joined columns. -/
theorem lin3_eq_lin1 (x : Fin 50000 → Fin 128 → EReal) (e : Fin 50000 → Fin 96 → EReal) (g : Fin 50000 → Fin 64 → EReal)
    (W1 : Fin 288 → Fin 256 → EReal) (b1 : Fin 256 → EReal) (r : Fin 50000) (j : Fin 256) :
    lin3 x e g (fun k j => W1 ⟨k.val, by omega⟩ j) (fun k j => W1 ⟨128 + k.val, by omega⟩ j)
        (fun k j => W1 ⟨224 + k.val, by omega⟩ j) b1 r j
      = lin1 x e g W1 b1 r j := by
  unfold lin3 lin1
  rw [sum_split3 (fun k => cat x e g r k * W1 k j)]
  refine congrArg (· + b1 j) (congrArg₂ (· + ·) (congrArg₂ (· + ·) ?_ ?_) ?_)
  · refine Finset.sum_congr rfl fun k _ => ?_
    have hc : cat x e g r ⟨k.val, by omega⟩ = x r k := by
      unfold cat; rw [dif_pos (show k.val < 128 from k.isLt)]
    rw [hc]
  · refine Finset.sum_congr rfl fun k _ => ?_
    have hc : cat x e g r ⟨128 + k.val, by omega⟩ = e r k := by
      unfold cat
      rw [dif_neg (show ¬ 128 + k.val < 128 by omega), dif_pos (show 128 + k.val < 224 by omega)]
      exact congrArg (e r) (Fin.ext (by show 128 + k.val - 128 = k.val; omega))
    rw [hc]
  · refine Finset.sum_congr rfl fun k _ => ?_
    have hc : cat x e g r ⟨224 + k.val, by omega⟩ = g r k := by
      unfold cat
      rw [dif_neg (show ¬ 224 + k.val < 128 by omega), dif_neg (show ¬ 224 + k.val < 224 by omega)]
      exact congrArg (g r) (Fin.ext (by show 224 + k.val - 224 = k.val; omega))
    rw [hc]

/-- A column sum over all 50000 rows is the sum of the 10 blocks' partial sums. -/
theorem sum_rows_eq_parts {M : Type*} [AddCommMonoid M] (f : Fin 50000 → M) :
    ∑ r : Fin 50000, f r = ∑ t : Fin 10, ∑ k : Fin 5000, f (row t k) :=
  Cert.Lib.sum_blocks 10 5000 rfl f

/-- The mean from the partial sums is the mean over all rows. -/
theorem mean_law (h : Fin 50000 → Fin 256 → EReal) (j : Fin 256) :
    meanOfParts (partSum h) j = meanAll h j := by
  unfold meanOfParts meanAll partSum
  rw [sum_rows_eq_parts (fun r => h r j)]

/-- The word 0x3F800000 denotes the real one. -/
theorem w1_eq : w1 = ((1 : ℝ) : EReal) := by
  simp [w1, Ideal.ofBits, Ideal.ieee, -EReal.coe_mul]; norm_num

/-- The zero word denotes zero. -/
theorem w0_eq : w0 = 0 := Ideal.ofBits_zero_f32

/-- The word 0x47435000 denotes the real 50000. -/
theorem wN_eq : wN = ((50000 : ℝ) : EReal) := Cert.Lib.ofBits_50000

/-- The variance from the partial sums — the mean of the squares less the square of the mean — is the mean of the
    squared deviations over all rows, when the column's entries are real. -/
theorem var_law (h : Fin 50000 → Fin 256 → EReal) (j : Fin 256) (hz : ∀ r, IsReal (h r j)) :
    varOfParts (partSum h) (partSumSq h) j = varAll h j := by
  unfold varOfParts
  rw [mean_law h j]
  unfold varAll meanAll partSumSq
  rw [← sum_rows_eq_parts (fun r => h r j * h r j), w0_eq, wN_eq]
  exact (var_identity_zero_add (fun r => h r j) hz 50000 (by norm_num) (by norm_num)).symm

/-- A segment sum of real terms is real. -/
theorem isReal_segSum (col : Fin 800000 → ℤ) (f : Fin 800000 → EReal) (hf : ∀ e, IsReal (f e)) (n : Fin 50000) :
    IsReal (segSum col f n) := by
  unfold segSum
  rw [w0_eq]
  refine isReal_zero.add (IsReal.sum_univ _ fun e => ?_)
  split_ifs
  · exact hf e
  · exact isReal_zero

/-- A count of edges, as a segment sum of ones from zero, is a nonnegative real. -/
theorem segSum_one_nonneg (col : Fin 800000 → ℤ) (n : Fin 50000) :
    ∃ cnt : ℝ, 0 ≤ cnt ∧ segSum col (fun _ => w1) n = (cnt : EReal) := by
  unfold segSum
  rw [w0_eq, w1_eq, zero_add]
  refine ⟨∑ e : Fin 800000, if col e = (n.val : ℤ) then (1 : ℝ) else 0,
    Finset.sum_nonneg fun e _ => by split_ifs <;> norm_num, ?_⟩
  rw [coe_finset_sum]
  refine Finset.sum_congr rfl fun e _ => ?_
  split_ifs <;> simp

/-- The scatter-mean of real edge features is real: the divisor is a count raised to at least one. -/
theorem isReal_eAggr (col : Fin 800000 → ℤ) (ea : Fin 800000 → Fin 96 → EReal) (hea : ∀ e k, IsReal (ea e k))
    (n : Fin 50000) (k : Fin 96) : IsReal (eAggr col ea n k) := by
  unfold eAggr
  obtain ⟨cnt, hc, hcnt⟩ := segSum_one_nonneg col n
  rw [hcnt, w1_eq]
  rcases le_total cnt 1 with h | h
  · rw [max_eq_right (EReal.coe_le_coe_iff.mpr h)]
    exact (isReal_segSum col _ (fun e => hea e k) n).div_coe one_ne_zero
  · rw [max_eq_left (EReal.coe_le_coe_iff.mpr h)]
    exact (isReal_segSum col _ (fun e => hea e k) n).div_coe (ne_of_gt (lt_of_lt_of_le one_pos h))

/-- The joined feature row of real groups is real. -/
theorem isReal_cat (x : Fin 50000 → Fin 128 → EReal) (e : Fin 50000 → Fin 96 → EReal) (g : Fin 50000 → Fin 64 → EReal)
    (hx : ∀ r k, IsReal (x r k)) (he : ∀ r k, IsReal (e r k)) (hg : ∀ r k, IsReal (g r k))
    (r : Fin 50000) (k : Fin 288) : IsReal (cat x e g r k) := by
  unfold cat
  split_ifs
  · exact hx _ _
  · exact he _ _
  · exact hg _ _

/-- The first layer's output on real inputs is real. -/
theorem isReal_lin1 (x : Fin 50000 → Fin 128 → EReal) (e : Fin 50000 → Fin 96 → EReal) (g : Fin 50000 → Fin 64 → EReal)
    (W1 : Fin 288 → Fin 256 → EReal) (b1 : Fin 256 → EReal)
    (hx : ∀ r k, IsReal (x r k)) (he : ∀ r k, IsReal (e r k)) (hg : ∀ r k, IsReal (g r k))
    (hW : ∀ k j, IsReal (W1 k j)) (hb : ∀ j, IsReal (b1 j)) (r : Fin 50000) (j : Fin 256) :
    IsReal (lin1 x e g W1 b1 r j) := by
  unfold lin1
  exact (IsReal.sum_univ _ fun k => (isReal_cat x e g hx he hg r k).mul (hW k j)).add (hb j)

/-- THE BRIDGE.  On real first-layer outputs, the output computed from the three-product first layer with the
    statistics taken from block partial sums is the output computed from the one-product first layer with the
    statistics taken over all rows. -/
theorem out_bridge (x : Fin 50000 → Fin 128 → EReal) (e : Fin 50000 → Fin 96 → EReal) (g : Fin 50000 → Fin 64 → EReal)
    (W1 : Fin 288 → Fin 256 → EReal) (b1 gam bet : Fin 256 → EReal) (W2 : Fin 256 → Fin 128 → EReal) (b2 : Fin 128 → EReal)
    (hx : ∀ r k, IsReal (x r k)) (he : ∀ r k, IsReal (e r k)) (hg : ∀ r k, IsReal (g r k))
    (hW : ∀ k j, IsReal (W1 k j)) (hb : ∀ j, IsReal (b1 j)) (r : Fin 50000) (q : Fin 128) :
    outOf (lin3 x e g (fun k j => W1 ⟨k.val, by omega⟩ j) (fun k j => W1 ⟨128 + k.val, by omega⟩ j)
            (fun k j => W1 ⟨224 + k.val, by omega⟩ j) b1)
        (meanOfParts (partSum (lin3 x e g (fun k j => W1 ⟨k.val, by omega⟩ j) (fun k j => W1 ⟨128 + k.val, by omega⟩ j)
            (fun k j => W1 ⟨224 + k.val, by omega⟩ j) b1)))
        (varOfParts (partSum (lin3 x e g (fun k j => W1 ⟨k.val, by omega⟩ j) (fun k j => W1 ⟨128 + k.val, by omega⟩ j)
            (fun k j => W1 ⟨224 + k.val, by omega⟩ j) b1))
          (partSumSq (lin3 x e g (fun k j => W1 ⟨k.val, by omega⟩ j) (fun k j => W1 ⟨128 + k.val, by omega⟩ j)
            (fun k j => W1 ⟨224 + k.val, by omega⟩ j) b1)))
        gam bet W2 b2 r q
      = outOf (lin1 x e g W1 b1) (meanAll (lin1 x e g W1 b1)) (varAll (lin1 x e g W1 b1)) gam bet W2 b2 r q := by
  have hH : lin3 x e g (fun k j => W1 ⟨k.val, by omega⟩ j) (fun k j => W1 ⟨128 + k.val, by omega⟩ j)
      (fun k j => W1 ⟨224 + k.val, by omega⟩ j) b1 = lin1 x e g W1 b1 :=
    funext fun r => funext fun j => lin3_eq_lin1 x e g W1 b1 r j
  rw [hH]
  have hm : meanOfParts (partSum (lin1 x e g W1 b1)) = meanAll (lin1 x e g W1 b1) :=
    funext fun j => mean_law _ j
  have hv : varOfParts (partSum (lin1 x e g W1 b1)) (partSumSq (lin1 x e g W1 b1)) = varAll (lin1 x e g W1 b1) :=
    funext fun j => var_law _ j fun r => isReal_lin1 x e g W1 b1 hx he hg hW hb r j
  rw [hm, hv]

end Cert.Spec

end
-- ==== Proof.KRegion0Pay.lean ====
/-
  The arithmetic of the first row-tile program, read one entry at a time on the extended reals.

  On a tile of 5000 rows the program forms  h = x·Wx + e·We + g·Wg + b  (three matrix products into zero
  accumulators, added left to right, then the bias row laid along every row), and the two column statistics of the
  tile: the sum over its 5000 rows of h, and of h·h.  A change of float format is the identity on the extended reals
  and a cast to the same shape is the identity, so entry (k, j) of h is the three contraction sums plus b(0, j); the
  column sums are sums over the 5000 row coordinates, and the two casts that add unit axes only rename the index.
-/
import proofs.«161687_j6279242186980_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region0

open Cert.KernelIdeal Cert.KernelIdeal.Gen Idealize.ShloMosaic Idealize.ShloMosaic.ValueIdx

/-! ## The three matrix products at an entry

For a product with one shared axis the operand indices at output entry (k, j) and shared coordinate i are (k, i) and
(i, j): the four coordinate facts below, then the contraction's index set is re-indexed by its one coordinate. -/

theorem lhs128_0 (p : S5000x256.Idx) (q : dot_S5000x128_S128x256_S5000x256_1_0_0_1_n_n.contr.Idx) :
    (dot_S5000x128_S128x256_S5000x256_1_0_0_1_n_n.lhsIdx p q 0).val = (p 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs128_1 (p : S5000x256.Idx) (q : dot_S5000x128_S128x256_S5000x256_1_0_0_1_n_n.contr.Idx) :
    (dot_S5000x128_S128x256_S5000x256_1_0_0_1_n_n.lhsIdx p q 1).val = (q ⟨0, by decide⟩).val :=
  dot_S5000x128_S128x256_S5000x256_1_0_0_1_n_n.lhsIdx_val_of_single rfl p q
theorem rhs128_0 (p : S5000x256.Idx) (q : dot_S5000x128_S128x256_S5000x256_1_0_0_1_n_n.contr.Idx) :
    (dot_S5000x128_S128x256_S5000x256_1_0_0_1_n_n.rhsIdx p q 0).val = (q ⟨0, by decide⟩).val :=
  dot_S5000x128_S128x256_S5000x256_1_0_0_1_n_n.rhsIdx_val_of_single rfl p q
theorem rhs128_1 (p : S5000x256.Idx) (q : dot_S5000x128_S128x256_S5000x256_1_0_0_1_n_n.contr.Idx) :
    (dot_S5000x128_S128x256_S5000x256_1_0_0_1_n_n.rhsIdx p q 1).val = (p 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- A [5000,128] by [128,256] product into the zero accumulator: entry (k, j) is the sum over the 128 shared
    coordinates of the products of row k of the left factor with column j of the right. -/
theorem mm128_apply (a : FVec Ideal S5000x128 .bf16) (b : FVec Ideal S128x256 .bf16) (k : Fin 5000) (j : Fin 256) :
    matmul dot_S5000x128_S128x256_S5000x256_1_0_0_1_n_n none a b (constant (F := Ideal) S5000x256 .f32 0x00000000#32) (ix2 k j)
      = ∑ i : Fin 128, a (ix2 k i) * b (ix2 i j) := by
  simp only [matmul]
  rw [Ideal.matmul_constant_zero_apply, ← Equiv.sum_comp (contrEquiv1 dot_S5000x128_S128x256_S5000x256_1_0_0_1_n_n 128 rfl rfl).symm]
  refine Finset.sum_congr rfl fun i _ => ?_
  have hk := contrEquiv1_symm_val dot_S5000x128_S128x256_S5000x256_1_0_0_1_n_n 128 rfl rfl i
  have el : dot_S5000x128_S128x256_S5000x256_1_0_0_1_n_n.lhsIdx (ix2 k j) ((contrEquiv1 dot_S5000x128_S128x256_S5000x256_1_0_0_1_n_n 128 rfl rfl).symm i) = ix2 k i :=
    funext fun c => Fin.ext (by
      match c with
      | ⟨0, _⟩ => exact lhs128_0 _ _
      | ⟨1, _⟩ => exact (lhs128_1 _ _).trans hk)
  have er : dot_S5000x128_S128x256_S5000x256_1_0_0_1_n_n.rhsIdx (ix2 k j) ((contrEquiv1 dot_S5000x128_S128x256_S5000x256_1_0_0_1_n_n 128 rfl rfl).symm i) = ix2 i j :=
    funext fun c => Fin.ext (by
      match c with
      | ⟨0, _⟩ => exact (rhs128_0 _ _).trans hk
      | ⟨1, _⟩ => exact rhs128_1 _ _)
  rw [el, er]

theorem lhs96_0 (p : S5000x256.Idx) (q : dot_S5000x96_S96x256_S5000x256_1_0_0_1_n_n.contr.Idx) :
    (dot_S5000x96_S96x256_S5000x256_1_0_0_1_n_n.lhsIdx p q 0).val = (p 0).val := by
  unfold DotDims.lhsIdx
  rw [dif_neg (show ¬(0 : Fin S5000x96.rank) ∈ dot_S5000x96_S96x256_S5000x256_1_0_0_1_n_n.lhsBatch by decide), dif_pos (show (0 : Fin S5000x96.rank) ∈ dot_S5000x96_S96x256_S5000x256_1_0_0_1_n_n.lhsNonContracting by decide)]
  rfl
theorem lhs96_1 (p : S5000x256.Idx) (q : dot_S5000x96_S96x256_S5000x256_1_0_0_1_n_n.contr.Idx) :
    (dot_S5000x96_S96x256_S5000x256_1_0_0_1_n_n.lhsIdx p q 1).val = (q ⟨0, by decide⟩).val :=
  dot_S5000x96_S96x256_S5000x256_1_0_0_1_n_n.lhsIdx_val_of_single rfl p q
theorem rhs96_0 (p : S5000x256.Idx) (q : dot_S5000x96_S96x256_S5000x256_1_0_0_1_n_n.contr.Idx) :
    (dot_S5000x96_S96x256_S5000x256_1_0_0_1_n_n.rhsIdx p q 0).val = (q ⟨0, by decide⟩).val :=
  dot_S5000x96_S96x256_S5000x256_1_0_0_1_n_n.rhsIdx_val_of_single rfl p q
theorem rhs96_1 (p : S5000x256.Idx) (q : dot_S5000x96_S96x256_S5000x256_1_0_0_1_n_n.contr.Idx) :
    (dot_S5000x96_S96x256_S5000x256_1_0_0_1_n_n.rhsIdx p q 1).val = (p 1).val := by
  unfold DotDims.rhsIdx
  rw [dif_neg (show ¬(1 : Fin S96x256.rank) ∈ dot_S5000x96_S96x256_S5000x256_1_0_0_1_n_n.rhsBatch by decide), dif_pos (show (1 : Fin S96x256.rank) ∈ dot_S5000x96_S96x256_S5000x256_1_0_0_1_n_n.rhsNonContracting by decide)]
  rfl

/-- A [5000,96] by [96,256] product into the zero accumulator: entry (k, j) is the sum over the 96 shared
    coordinates of the products of row k of the left factor with column j of the right. -/
theorem mm96_apply (a : FVec Ideal S5000x96 .bf16) (b : FVec Ideal S96x256 .bf16) (k : Fin 5000) (j : Fin 256) :
    matmul dot_S5000x96_S96x256_S5000x256_1_0_0_1_n_n none a b (constant (F := Ideal) S5000x256 .f32 0x00000000#32) (ix2 k j)
      = ∑ i : Fin 96, a (ix2 k i) * b (ix2 i j) := by
  simp only [matmul]
  rw [Ideal.matmul_constant_zero_apply, ← Equiv.sum_comp (contrEquiv1 dot_S5000x96_S96x256_S5000x256_1_0_0_1_n_n 96 rfl rfl).symm]
  refine Finset.sum_congr rfl fun i _ => ?_
  have hk := contrEquiv1_symm_val dot_S5000x96_S96x256_S5000x256_1_0_0_1_n_n 96 rfl rfl i
  have el : dot_S5000x96_S96x256_S5000x256_1_0_0_1_n_n.lhsIdx (ix2 k j) ((contrEquiv1 dot_S5000x96_S96x256_S5000x256_1_0_0_1_n_n 96 rfl rfl).symm i) = ix2 k i :=
    funext fun c => Fin.ext (by
      match c with
      | ⟨0, _⟩ => exact lhs96_0 _ _
      | ⟨1, _⟩ => exact (lhs96_1 _ _).trans hk)
  have er : dot_S5000x96_S96x256_S5000x256_1_0_0_1_n_n.rhsIdx (ix2 k j) ((contrEquiv1 dot_S5000x96_S96x256_S5000x256_1_0_0_1_n_n 96 rfl rfl).symm i) = ix2 i j :=
    funext fun c => Fin.ext (by
      match c with
      | ⟨0, _⟩ => exact (rhs96_0 _ _).trans hk
      | ⟨1, _⟩ => exact rhs96_1 _ _)
  rw [el, er]

theorem lhs64_0 (p : S5000x256.Idx) (q : dot_S5000x64_S64x256_S5000x256_1_0_0_1_n_n.contr.Idx) :
    (dot_S5000x64_S64x256_S5000x256_1_0_0_1_n_n.lhsIdx p q 0).val = (p 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
theorem lhs64_1 (p : S5000x256.Idx) (q : dot_S5000x64_S64x256_S5000x256_1_0_0_1_n_n.contr.Idx) :
    (dot_S5000x64_S64x256_S5000x256_1_0_0_1_n_n.lhsIdx p q 1).val = (q ⟨0, by decide⟩).val :=
  dot_S5000x64_S64x256_S5000x256_1_0_0_1_n_n.lhsIdx_val_of_single rfl p q
theorem rhs64_0 (p : S5000x256.Idx) (q : dot_S5000x64_S64x256_S5000x256_1_0_0_1_n_n.contr.Idx) :
    (dot_S5000x64_S64x256_S5000x256_1_0_0_1_n_n.rhsIdx p q 0).val = (q ⟨0, by decide⟩).val :=
  dot_S5000x64_S64x256_S5000x256_1_0_0_1_n_n.rhsIdx_val_of_single rfl p q
theorem rhs64_1 (p : S5000x256.Idx) (q : dot_S5000x64_S64x256_S5000x256_1_0_0_1_n_n.contr.Idx) :
    (dot_S5000x64_S64x256_S5000x256_1_0_0_1_n_n.rhsIdx p q 1).val = (p 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- A [5000,64] by [64,256] product into the zero accumulator: entry (k, j) is the sum over the 64 shared
    coordinates of the products of row k of the left factor with column j of the right. -/
theorem mm64_apply (a : FVec Ideal S5000x64 .bf16) (b : FVec Ideal S64x256 .bf16) (k : Fin 5000) (j : Fin 256) :
    matmul dot_S5000x64_S64x256_S5000x256_1_0_0_1_n_n none a b (constant (F := Ideal) S5000x256 .f32 0x00000000#32) (ix2 k j)
      = ∑ i : Fin 64, a (ix2 k i) * b (ix2 i j) := by
  simp only [matmul]
  rw [Ideal.matmul_constant_zero_apply, ← Equiv.sum_comp (contrEquiv1 dot_S5000x64_S64x256_S5000x256_1_0_0_1_n_n 64 rfl rfl).symm]
  refine Finset.sum_congr rfl fun i _ => ?_
  have hk := contrEquiv1_symm_val dot_S5000x64_S64x256_S5000x256_1_0_0_1_n_n 64 rfl rfl i
  have el : dot_S5000x64_S64x256_S5000x256_1_0_0_1_n_n.lhsIdx (ix2 k j) ((contrEquiv1 dot_S5000x64_S64x256_S5000x256_1_0_0_1_n_n 64 rfl rfl).symm i) = ix2 k i :=
    funext fun c => Fin.ext (by
      match c with
      | ⟨0, _⟩ => exact lhs64_0 _ _
      | ⟨1, _⟩ => exact (lhs64_1 _ _).trans hk)
  have er : dot_S5000x64_S64x256_S5000x256_1_0_0_1_n_n.rhsIdx (ix2 k j) ((contrEquiv1 dot_S5000x64_S64x256_S5000x256_1_0_0_1_n_n 64 rfl rfl).symm i) = ix2 i j :=
    funext fun c => Fin.ext (by
      match c with
      | ⟨0, _⟩ => exact (rhs64_0 _ _).trans hk
      | ⟨1, _⟩ => exact rhs64_1 _ _)
  rw [el, er]

/-! ## The tile's first-layer output at an entry -/

/-- Entry (k, j) of the tile's h: the three contraction sums, added left to right, plus the bias row at column j. -/
theorem pay2_apply (x0 : Vec Ideal S5000x128 .f32) (wx : Vec Ideal S128x256 .f32) (x1 : Vec Ideal S5000x96 .f32)
    (we : Vec Ideal S96x256 .f32) (x2 : Vec Ideal S5000x64 .f32) (wg : Vec Ideal S64x256 .f32) (b : Vec Ideal S1x256 .f32)
    (k : Fin 5000) (j : Fin 256) :
    k0_pay2 (F := Ideal) x0 wx x1 we x2 wg b (ix2 k j)
      = (∑ i : Fin 128, x0 (ix2 k i) * wx (ix2 i j)) + (∑ i : Fin 96, x1 (ix2 k i) * we (ix2 i j))
        + (∑ i : Fin 64, x2 (ix2 k i) * wg (ix2 i j)) + b (ix2 (0 : Fin 1) j) := by
  unfold k0_pay2
  simp only [shapeCast_self]
  refine congrArg₂ (· + ·) (congrArg₂ (· + ·) (congrArg₂ (· + ·) ?_ ?_) ?_) ?_
  · exact mm128_apply _ _ k j
  · exact mm96_apply _ _ k j
  · exact mm64_apply _ _ k j
  · exact broadcastTo_1b_ab_apply _ _ k j

/-- What is stored as the tile's output is h itself: the change of float format is the identity on the extended reals. -/
theorem pay3_apply (x0 : Vec Ideal S5000x128 .f32) (wx : Vec Ideal S128x256 .f32) (x1 : Vec Ideal S5000x96 .f32)
    (we : Vec Ideal S96x256 .f32) (x2 : Vec Ideal S5000x64 .f32) (wg : Vec Ideal S64x256 .f32) (b : Vec Ideal S1x256 .f32)
    (y : S5000x256.Idx) :
    k0_pay3 (F := Ideal) x0 wx x1 we x2 wg b y = k0_pay2 (F := Ideal) x0 wx x1 we x2 wg b y := rfl

/-! ## The tile's column statistics at an entry -/

/-- A sum over the row axis of a [5000,256] tile: entry j is the sum over the 5000 row coordinates of column j. -/
theorem colsum_apply (v : FVec Ideal S5000x256 .f32) (j : Fin 256) :
    multiReduction (F := Ideal) .add [0] S256 v 0x00000000#32 reduces_S5000x256_S256 (.inl rfl) rfl (ix1 j)
      = ∑ k : Fin 5000, v (ix2 k j) := by
  refine (Ideal.multiReduction_add_single v 0x00000000#32 reduces_S5000x256_S256 (.inl rfl) rfl (ix1 j)).trans ?_
  refine Finset.sum_congr rfl fun k _ => congrArg v ?_
  funext c
  apply Fin.ext
  match c with
  | ⟨0, _⟩ => rfl
  | ⟨1, _⟩ => rfl

/-- The tile's column sums of h, laid out [1,1,256]: entry (0, 0, j) is the sum over the tile's rows of h at column j
    (the two casts only add unit axes). -/
theorem pay5_apply (x0 : Vec Ideal S5000x128 .f32) (wx : Vec Ideal S128x256 .f32) (x1 : Vec Ideal S5000x96 .f32)
    (we : Vec Ideal S96x256 .f32) (x2 : Vec Ideal S5000x64 .f32) (wg : Vec Ideal S64x256 .f32) (b : Vec Ideal S1x256 .f32)
    (u v : Fin 1) (j : Fin 256) :
    k0_pay5 (F := Ideal) x0 wx x1 we x2 wg b (ix3 u v j)
      = ∑ k : Fin 5000, k0_pay2 (F := Ideal) x0 wx x1 we x2 wg b (ix2 k j) := by
  unfold k0_pay5
  refine (shapeCast_ab_1ab_apply _ _ u v j).trans ?_
  refine (shapeCast_a_1a_apply _ _ v j).trans ?_
  exact colsum_apply _ j

/-- The tile's column sums of h·h, laid out [1,1,256]: entry (0, 0, j) is the sum over the tile's rows of the square
    of h at column j. -/
theorem pay14_apply (x0 : Vec Ideal S5000x128 .f32) (wx : Vec Ideal S128x256 .f32) (x1 : Vec Ideal S5000x96 .f32)
    (we : Vec Ideal S96x256 .f32) (x2 : Vec Ideal S5000x64 .f32) (wg : Vec Ideal S64x256 .f32) (b : Vec Ideal S1x256 .f32)
    (u v : Fin 1) (j : Fin 256) :
    k0_pay1 (F := Ideal) (k0_pay4 (F := Ideal) x0 wx x1 we x2 wg b) (ix3 u v j)
      = ∑ k : Fin 5000, k0_pay2 (F := Ideal) x0 wx x1 we x2 wg b (ix2 k j) * k0_pay2 (F := Ideal) x0 wx x1 we x2 wg b (ix2 k j) := by
  unfold k0_pay1 k0_pay4
  refine (shapeCast_ab_1ab_apply _ _ u v j).trans ?_
  refine (shapeCast_a_1a_apply _ _ v j).trans ?_
  exact colsum_apply _ j

end Cert.KernelIdeal.Region0

end
-- ==== Proof.KRegion0.lean ====
/-
  What the first row-tile program leaves in its three result arrays, for any contents of its operand arrays.

  The grid has 10 points; point t reads rows t·5000 … t·5000 + 4999 of the three row-tiled operands (and the whole of
  the three weight matrices and the bias row), and writes back: rows t·5000 … of the [50000,256] array, and row t of
  each of the two [10,1,256] arrays.  The blocks of each result tile its array, so the array after the run is one
  function of the operands: h = x·Wx + e·We + g·Wg + b entry by entry, and per tile the column sums of h and of h·h.
-/
import proofs.«161687_j6279242186980_2_alg».proof.Proof.Gen.KernelIdeal.Frame
import proofs.«161687_j6279242186980_2_alg».proof.Proof.Spec
import proofs.«161687_j6279242186980_2_alg».proof.Proof.KRegion0Pay
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- Region 0's operand arrays as functions of coordinates. -/
def aX  : Fin 50000 → Fin 128 → EReal := fun p k => (V c main_arg0 : S50000x128.Idx → EReal) (ix2 p k)
def aE  : Fin 50000 → Fin 96  → EReal := fun p k => (V c main_v12  : S50000x96.Idx  → EReal) (ix2 p k)
def aG  : Fin 50000 → Fin 64  → EReal := fun p k => (V c main_v19  : S50000x64.Idx  → EReal) (ix2 p k)
def aWx : Fin 128 → Fin 256 → EReal := fun k j => (V c main_v20 : S128x256.Idx → EReal) (ix2 k j)
def aWe : Fin 96  → Fin 256 → EReal := fun k j => (V c main_v21 : S96x256.Idx  → EReal) (ix2 k j)
def aWg : Fin 64  → Fin 256 → EReal := fun k j => (V c main_v22 : S64x256.Idx → EReal) (ix2 k j)
def aB1 : Fin 256 → EReal := fun j => (V c main_v23 : S1x256.Idx → EReal) (ix2 (0 : Fin 1) j)

/-- The first layer's output on those arrays. -/
def H : Fin 50000 → Fin 256 → EReal := Cert.Spec.lin3 (aX V c) (aE V c) (aG V c) (aWx V c) (aWe V c) (aWg V c) (aB1 V c)

/-! ## Where each window's block sits at a point -/

/-- The zero offsets of a whole-block access, at rank 2 and at rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The block indices of every window at point t, decided over the 10 points: the row-tiled windows and the three
    results sit at block t of their first axis, the weights and the bias at block 0. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 3) = t.val
    ∧ win0_8.index t (1 : Fin 3) = 0
    ∧ win0_8.index t (2 : Fin 3) = 0
    ∧ win0_9.index t (0 : Fin 3) = t.val
    ∧ win0_9.index t (1 : Fin 3) = 0
    ∧ win0_9.index t (2 : Fin 3) = 0 :=
  (by decide +kernel : ∀ t : Fin grid0.N, _)

/-- A point of the grid as a number below 10. -/
def pt (t : Fin cfg0.N) : Fin 10 := ⟨t.val, by have h := t.isLt; have hN : cfg0.N = 10 := N_0; omega⟩

/-- Window 0's block at point t is rows t·5000 … t·5000 + 4999 of its array. -/
theorem blk0_apply (t : Fin cfg0.N) (k : Fin 5000) (i : Fin 128) (p : Fin 50000) (hp : p.val = t.val * 5000 + k.val) :
    (iblk0 V c 0 t : Vec Ideal S5000x128 .f32) (ix2 k i) = (V c main_arg0 : S50000x128.Idx → EReal) (ix2 p i) := by
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  unfold iblk0
  rw [View.read_apply]
  show V c main_arg0 _ = V c main_arg0 _
  congr 1
  funext a
  apply Fin.ext
  match a with
  | ⟨0, _⟩ => show win0_0.index t (0 : Fin 2) * 5000 + 1 * k.val = p.val; rw [f0_0, hp]; omega
  | ⟨1, _⟩ => show win0_0.index t (1 : Fin 2) * 128 + 1 * i.val = i.val; rw [f0_1]; omega

/-- Window 1's block at point t is rows t·5000 … t·5000 + 4999 of its array. -/
theorem blk1_apply (t : Fin cfg0.N) (k : Fin 5000) (i : Fin 96) (p : Fin 50000) (hp : p.val = t.val * 5000 + k.val) :
    (iblk0 V c 1 t : Vec Ideal S5000x96 .f32) (ix2 k i) = (V c main_v12 : S50000x96.Idx → EReal) (ix2 p i) := by
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  unfold iblk0
  rw [View.read_apply]
  show V c main_v12 _ = V c main_v12 _
  congr 1
  funext a
  apply Fin.ext
  match a with
  | ⟨0, _⟩ => show win0_1.index t (0 : Fin 2) * 5000 + 1 * k.val = p.val; rw [f1_0, hp]; omega
  | ⟨1, _⟩ => show win0_1.index t (1 : Fin 2) * 96 + 1 * i.val = i.val; rw [f1_1]; omega

/-- Window 2's block at point t is rows t·5000 … t·5000 + 4999 of its array. -/
theorem blk2_apply (t : Fin cfg0.N) (k : Fin 5000) (i : Fin 64) (p : Fin 50000) (hp : p.val = t.val * 5000 + k.val) :
    (iblk0 V c 2 t : Vec Ideal S5000x64 .f32) (ix2 k i) = (V c main_v19 : S50000x64.Idx → EReal) (ix2 p i) := by
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  unfold iblk0
  rw [View.read_apply]
  show V c main_v19 _ = V c main_v19 _
  congr 1
  funext a
  apply Fin.ext
  match a with
  | ⟨0, _⟩ => show win0_2.index t (0 : Fin 2) * 5000 + 1 * k.val = p.val; rw [f2_0, hp]; omega
  | ⟨1, _⟩ => show win0_2.index t (1 : Fin 2) * 64 + 1 * i.val = i.val; rw [f2_1]; omega

/-- Window 3's block at every point is its whole array. -/
theorem blk3_apply (t : Fin cfg0.N) (k : Fin 128) (i : Fin 256) :
    (iblk0 V c 3 t : Vec Ideal S128x256 .f32) (ix2 k i) = (V c main_v20 : S128x256.Idx → EReal) (ix2 k i) := by
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  unfold iblk0
  rw [View.read_apply]
  show V c main_v20 _ = V c main_v20 _
  congr 1
  funext a
  apply Fin.ext
  match a with
  | ⟨0, _⟩ => show win0_3.index t (0 : Fin 2) * 128 + 1 * k.val = k.val; rw [f3_0]; omega
  | ⟨1, _⟩ => show win0_3.index t (1 : Fin 2) * 256 + 1 * i.val = i.val; rw [f3_1]; omega

/-- Window 4's block at every point is its whole array. -/
theorem blk4_apply (t : Fin cfg0.N) (k : Fin 96) (i : Fin 256) :
    (iblk0 V c 4 t : Vec Ideal S96x256 .f32) (ix2 k i) = (V c main_v21 : S96x256.Idx → EReal) (ix2 k i) := by
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  unfold iblk0
  rw [View.read_apply]
  show V c main_v21 _ = V c main_v21 _
  congr 1
  funext a
  apply Fin.ext
  match a with
  | ⟨0, _⟩ => show win0_4.index t (0 : Fin 2) * 96 + 1 * k.val = k.val; rw [f4_0]; omega
  | ⟨1, _⟩ => show win0_4.index t (1 : Fin 2) * 256 + 1 * i.val = i.val; rw [f4_1]; omega

/-- Window 5's block at every point is its whole array. -/
theorem blk5_apply (t : Fin cfg0.N) (k : Fin 64) (i : Fin 256) :
    (iblk0 V c 5 t : Vec Ideal S64x256 .f32) (ix2 k i) = (V c main_v22 : S64x256.Idx → EReal) (ix2 k i) := by
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  unfold iblk0
  rw [View.read_apply]
  show V c main_v22 _ = V c main_v22 _
  congr 1
  funext a
  apply Fin.ext
  match a with
  | ⟨0, _⟩ => show win0_5.index t (0 : Fin 2) * 64 + 1 * k.val = k.val; rw [f5_0]; omega
  | ⟨1, _⟩ => show win0_5.index t (1 : Fin 2) * 256 + 1 * i.val = i.val; rw [f5_1]; omega

/-- Window 6's block at every point is its whole array. -/
theorem blk6_apply (t : Fin cfg0.N) (k : Fin 1) (i : Fin 256) :
    (iblk0 V c 6 t : Vec Ideal S1x256 .f32) (ix2 k i) = (V c main_v23 : S1x256.Idx → EReal) (ix2 k i) := by
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  unfold iblk0
  rw [View.read_apply]
  show V c main_v23 _ = V c main_v23 _
  congr 1
  funext a
  apply Fin.ext
  match a with
  | ⟨0, _⟩ => show win0_6.index t (0 : Fin 2) * 1 + 1 * k.val = k.val; rw [f6_0]; omega
  | ⟨1, _⟩ => show win0_6.index t (1 : Fin 2) * 256 + 1 * i.val = i.val; rw [f6_1]; omega

/-! ## A tile of h is the rows of the whole h -/

/-- Entry (k, j) of point t's tile of h is entry (t·5000 + k, j) of the first layer's output on the whole arrays. -/
theorem blockH (t : Fin cfg0.N) (k : Fin 5000) (j : Fin 256) :
    k0_pay2 (F := Ideal) (iblk0 V c 0 t) (iblk0 V c 3 t) (iblk0 V c 1 t) (iblk0 V c 4 t) (iblk0 V c 2 t) (iblk0 V c 5 t) (iblk0 V c 6 t) (ix2 k j)
      = H V c (Cert.Spec.row (pt t) k) j := by
  refine (pay2_apply (iblk0 V c 0 t) (iblk0 V c 3 t) (iblk0 V c 1 t) (iblk0 V c 4 t) (iblk0 V c 2 t) (iblk0 V c 5 t) (iblk0 V c 6 t) k j).trans ?_
  have hp : (Cert.Spec.row (pt t) k).val = t.val * 5000 + k.val := rfl
  unfold H Cert.Spec.lin3 aX aE aG aWx aWe aWg aB1
  refine congrArg₂ (· + ·) (congrArg₂ (· + ·) (congrArg₂ (· + ·) ?_ ?_) ?_) ?_
  · exact Finset.sum_congr rfl fun i _ => congrArg₂ (· * ·) (blk0_apply V c t k i _ hp) (blk3_apply V c t i j)
  · exact Finset.sum_congr rfl fun i _ => congrArg₂ (· * ·) (blk1_apply V c t k i _ hp) (blk4_apply V c t i j)
  · exact Finset.sum_congr rfl fun i _ => congrArg₂ (· * ·) (blk2_apply V c t k i _ hp) (blk5_apply V c t i j)
  · exact blk6_apply V c t (0 : Fin 1) j

/-- The same at any index of the tile, the row and column named by their values. -/
theorem blockH_at (t : Fin cfg0.N) (y : S5000x256.Idx) (r : Fin 50000) (j : Fin 256)
    (hr : r.val = t.val * 5000 + (y 0).val) (hj : j.val = (y 1).val) :
    k0_pay3 (F := Ideal) (iblk0 V c 0 t) (iblk0 V c 3 t) (iblk0 V c 1 t) (iblk0 V c 4 t) (iblk0 V c 2 t) (iblk0 V c 5 t) (iblk0 V c 6 t) y
      = H V c r j := by
  obtain ⟨k, j', rfl⟩ : ∃ (k : Fin 5000) (j' : Fin 256), y = ix2 k j' := ⟨y 0, y 1, eq_ix2 y⟩
  have e1 : r = Cert.Spec.row (pt t) k := Fin.ext hr
  have e2 : j = j' := Fin.ext hj
  subst e1 e2
  exact blockH V c t k j

/-! ## The [50000,256] result -/

/-- What the [50000,256] array ends holding, as a function of its index. -/
def G7 : S50000x256.Idx → EReal := fun i => H V c ⟨(i 0).val, (i 0).isLt⟩ ⟨(i 1).val, (i 1).isLt⟩

/-- What point t writes back is block t of that function: the one whole-block store of the tile's h, read where the
    block sits in the array. -/
theorem flushed7_eq (t : Fin cfg0.N) :
    (dat0 V c).flushed 7 t = ((cfg0.win 7).blk t).view.read (Elt Ideal) (G7 V c) := by
  show (cfg0.win 7).cut (grid0.coords t) ((dat0 V c).after 7 t) = _
  rw [after0_7]
  unfold out0_7
  rw [View.canon_unit_zero hz2]
  simp only [View.ld_unit_zero (S := S5000x128) hz2, View.ld_unit_zero (S := S5000x96) hz2, View.ld_unit_zero (S := S5000x64) hz2,
    View.ld_unit_zero (S := S128x256) hz2, View.ld_unit_zero (S := S96x256) hz2, View.ld_unit_zero (S := S64x256) hz2,
    View.ld_unit_zero (S := S1x256) hz2]
  funext y
  show k0_pay3 (F := Ideal) (iblk0 V c 0 t) (iblk0 V c 3 t) (iblk0 V c 1 t) (iblk0 V c 4 t) (iblk0 V c 2 t) (iblk0 V c 5 t) (iblk0 V c 6 t) y
    = G7 V c (((cfg0.win 7).blk t).view.emb y)
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  unfold G7
  refine blockH_at V c t y _ _ ?_ ?_
  · show win0_7.index t (0 : Fin 2) * 5000 + 1 * (y 0).val = t.val * 5000 + (y 0).val
    rw [f7_0]; omega
  · show win0_7.index t (1 : Fin 2) * 256 + 1 * (y 1).val = (y 1).val
    rw [f7_1]; omega

/-- An index of the array is in point t's block iff each coordinate is in the block's range on its axis. -/
theorem mem_blk7 (t : Fin cfg0.N) (i : S50000x256.Idx) :
    i ∈ ((cfg0.win 7).blk t).view.set ↔ ∀ a : Fin 2, win0_7.index t a * S5000x256.size a ≤ (i a).val ∧ (i a).val < win0_7.index t a * S5000x256.size a + S5000x256.size a := by
  show i ∈ ((View.whole main_v24_0).slice (win0_7.rect t)).set ↔ _
  rw [View.set_slice_whole, Rect.mem_set_unit]
  exact Iff.rfl

/-- Row r is in the block of point r / 5000. -/
theorem cover7 (i : S50000x256.Idx) : ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 10 := N_0
  let t : Fin cfg0.N := ⟨(i 0).val / 5000, by omega⟩
  have ht : t.val = (i 0).val / 5000 := rfl
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; rw [f7_0, ht]; omega
  | ⟨1, _⟩ => show win0_7.index t (1 : Fin 2) * 256 ≤ (i 1).val ∧ (i 1).val < win0_7.index t (1 : Fin 2) * 256 + 256; rw [f7_1]; omega

/-- The [50000,256] array after the run is h on the whole arrays. -/
theorem final7 : (dat0 V c).arrAt 7 cfg0.N = G7 V c :=
  (dat0 V c).arrAt_eq_of_cover 7 (G7 V c) (fun t _ => flushed7_eq V c t) (cover7)

/-- Entry (r, j) of the [50000,256] array after the run is h at (r, j). -/
theorem hpre_entry (r : Fin 50000) (j : Fin 256) :
    ((dat0 V c).arrAt 7 cfg0.N : S50000x256.Idx → EReal) (ix2 r j) = H V c r j :=
  congrFun (final7 V c) (ix2 r j)

/-! ## The [10,1,256] array of per-tile column sums of h -/

/-- Point t's [1,1,256] block of column sums of h, at any of its indices, is tile t's partial sum on the whole
    arrays: the tile's rows are rows t·5000 … of the whole h. -/
theorem sumBlock_at (t : Fin cfg0.N) (y : S1x1x256.Idx) (tt : Fin 10) (j : Fin 256) (ht : tt.val = t.val) (hj : j.val = (y 2).val) :
    k0_pay5 (F := Ideal) (iblk0 V c 0 t) (iblk0 V c 3 t) (iblk0 V c 1 t) (iblk0 V c 4 t) (iblk0 V c 2 t) (iblk0 V c 5 t) (iblk0 V c 6 t) y = Cert.Spec.partSum (H V c) tt j := by
  obtain ⟨u, v, j', rfl⟩ : ∃ (u v : Fin 1) (j' : Fin 256), y = ix3 u v j' := ⟨y 0, y 1, y 2, eq_ix3 y⟩
  have e1 : tt = pt t := Fin.ext ht
  have e2 : j = j' := Fin.ext hj
  subst e1 e2
  refine (pay5_apply (iblk0 V c 0 t) (iblk0 V c 3 t) (iblk0 V c 1 t) (iblk0 V c 4 t) (iblk0 V c 2 t) (iblk0 V c 5 t) (iblk0 V c 6 t) u v j).trans ?_
  unfold Cert.Spec.partSum
  exact Finset.sum_congr rfl fun k _ => blockH V c t k j

/-- What that array ends holding, as a function of its index: row t is tile t's column sums. -/
def G8 : S10x1x256.Idx → EReal := fun i => Cert.Spec.partSum (H V c) ⟨(i 0).val, (i 0).isLt⟩ ⟨(i 2).val, (i 2).isLt⟩

/-- What point t writes back is block t of that function: its one whole-block store, read where the block sits. -/
theorem flushed8_eq (t : Fin cfg0.N) :
    (dat0 V c).flushed 8 t = ((cfg0.win 8).blk t).view.read (Elt Ideal) (G8 V c) := by
  show (cfg0.win 8).cut (grid0.coords t) ((dat0 V c).after 8 t) = _
  rw [after0_8]
  unfold out0_8
  rw [View.canon_unit_zero hz3]
  simp only [View.ld_unit_zero (S := S5000x128) hz2, View.ld_unit_zero (S := S5000x96) hz2, View.ld_unit_zero (S := S5000x64) hz2,
    View.ld_unit_zero (S := S128x256) hz2, View.ld_unit_zero (S := S96x256) hz2, View.ld_unit_zero (S := S64x256) hz2,
    View.ld_unit_zero (S := S1x256) hz2]
  funext y
  show k0_pay5 (F := Ideal) (iblk0 V c 0 t) (iblk0 V c 3 t) (iblk0 V c 1 t) (iblk0 V c 4 t) (iblk0 V c 2 t) (iblk0 V c 5 t) (iblk0 V c 6 t) y
    = G8 V c (((cfg0.win 8).blk t).view.emb y)
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  have hy0 : (y 0).val < 1 := (y 0).isLt
  unfold G8
  refine sumBlock_at V c t y _ _ ?_ ?_
  · show win0_8.index t (0 : Fin 3) * 1 + 1 * (y 0).val = t.val
    rw [f8_0]; omega
  · show win0_8.index t (2 : Fin 3) * 256 + 1 * (y 2).val = (y 2).val
    rw [f8_2]; omega

/-- An index of the array is in point t's block iff each coordinate is in the block's range on its axis. -/
theorem mem_blk8 (t : Fin cfg0.N) (i : S10x1x256.Idx) :
    i ∈ ((cfg0.win 8).blk t).view.set ↔ ∀ a : Fin 3, win0_8.index t a * S1x1x256.size a ≤ (i a).val ∧ (i a).val < win0_8.index t a * S1x1x256.size a + S1x1x256.size a := by
  show i ∈ ((View.whole main_v24_1).slice (win0_8.rect t)).set ↔ _
  rw [View.set_slice_whole, Rect.mem_set_unit]
  exact Iff.rfl

/-- Row t is the block of point t. -/
theorem cover8 (i : S10x1x256.Idx) : ∃ t : Fin cfg0.N, (cfg0.win 8).flush t = true ∧ i ∈ ((cfg0.win 8).blk t).view.set := by
  have hi0 : (i 0).val < 10 := (i 0).isLt
  have hi1 : (i 1).val < 1 := (i 1).isLt
  have hi2 : (i 2).val < 256 := (i 2).isLt
  have hN : cfg0.N = 10 := N_0
  let t : Fin cfg0.N := ⟨(i 0).val, by omega⟩
  have ht : t.val = (i 0).val := rfl
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; rw [f8_0, ht]; omega
  | ⟨1, _⟩ => show win0_8.index t (1 : Fin 3) * 1 ≤ (i 1).val ∧ (i 1).val < win0_8.index t (1 : Fin 3) * 1 + 1; rw [f8_1]; omega
  | ⟨2, _⟩ => show win0_8.index t (2 : Fin 3) * 256 ≤ (i 2).val ∧ (i 2).val < win0_8.index t (2 : Fin 3) * 256 + 256; rw [f8_2]; omega

/-- The array after the run: per tile, the column sums of h on the whole arrays. -/
theorem final8 : (dat0 V c).arrAt 8 cfg0.N = G8 V c :=
  (dat0 V c).arrAt_eq_of_cover 8 (G8 V c) (fun t _ => flushed8_eq V c t) (cover8)

/-- Entry (t, 0, j) of the first [10,1,256] array after the run is tile t's sum of column j of h. -/
theorem sum_entry (t : Fin 10) (j : Fin 256) :
    ((dat0 V c).arrAt 8 cfg0.N : S10x1x256.Idx → EReal) (ix3 t (0 : Fin 1) j) = Cert.Spec.partSum (H V c) t j :=
  congrFun (final8 V c) (ix3 t (0 : Fin 1) j)

/-! ## The [10,1,256] array of per-tile column sums of h·h -/

/-- Point t's [1,1,256] block of column sums of h·h, at any of its indices, is tile t's partial sum on the whole
    arrays: the tile's rows are rows t·5000 … of the whole h. -/
theorem sumSqBlock_at (t : Fin cfg0.N) (y : S1x1x256.Idx) (tt : Fin 10) (j : Fin 256) (ht : tt.val = t.val) (hj : j.val = (y 2).val) :
    k0_pay1 (F := Ideal) (k0_pay4 (F := Ideal) (iblk0 V c 0 t) (iblk0 V c 3 t) (iblk0 V c 1 t) (iblk0 V c 4 t) (iblk0 V c 2 t) (iblk0 V c 5 t) (iblk0 V c 6 t)) y = Cert.Spec.partSumSq (H V c) tt j := by
  obtain ⟨u, v, j', rfl⟩ : ∃ (u v : Fin 1) (j' : Fin 256), y = ix3 u v j' := ⟨y 0, y 1, y 2, eq_ix3 y⟩
  have e1 : tt = pt t := Fin.ext ht
  have e2 : j = j' := Fin.ext hj
  subst e1 e2
  refine (pay14_apply (iblk0 V c 0 t) (iblk0 V c 3 t) (iblk0 V c 1 t) (iblk0 V c 4 t) (iblk0 V c 2 t) (iblk0 V c 5 t) (iblk0 V c 6 t) u v j).trans ?_
  unfold Cert.Spec.partSumSq
  exact Finset.sum_congr rfl fun k _ => congrArg₂ (· * ·) (blockH V c t k j) (blockH V c t k j)

/-- What that array ends holding, as a function of its index: row t is tile t's column sums. -/
def G9 : S10x1x256.Idx → EReal := fun i => Cert.Spec.partSumSq (H V c) ⟨(i 0).val, (i 0).isLt⟩ ⟨(i 2).val, (i 2).isLt⟩

/-- What point t writes back is block t of that function: its one whole-block store, read where the block sits. -/
theorem flushed9_eq (t : Fin cfg0.N) :
    (dat0 V c).flushed 9 t = ((cfg0.win 9).blk t).view.read (Elt Ideal) (G9 V c) := by
  show (cfg0.win 9).cut (grid0.coords t) ((dat0 V c).after 9 t) = _
  rw [after0_9]
  unfold out0_9
  rw [View.canon_unit_zero hz3]
  simp only [View.ld_unit_zero (S := S5000x128) hz2, View.ld_unit_zero (S := S5000x96) hz2, View.ld_unit_zero (S := S5000x64) hz2,
    View.ld_unit_zero (S := S128x256) hz2, View.ld_unit_zero (S := S96x256) hz2, View.ld_unit_zero (S := S64x256) hz2,
    View.ld_unit_zero (S := S1x256) hz2]
  funext y
  show k0_pay1 (F := Ideal) (k0_pay4 (F := Ideal) (iblk0 V c 0 t) (iblk0 V c 3 t) (iblk0 V c 1 t) (iblk0 V c 4 t) (iblk0 V c 2 t) (iblk0 V c 5 t) (iblk0 V c 6 t)) y
    = G9 V c (((cfg0.win 9).blk t).view.emb y)
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  have hy0 : (y 0).val < 1 := (y 0).isLt
  unfold G9
  refine sumSqBlock_at V c t y _ _ ?_ ?_
  · show win0_9.index t (0 : Fin 3) * 1 + 1 * (y 0).val = t.val
    rw [f9_0]; omega
  · show win0_9.index t (2 : Fin 3) * 256 + 1 * (y 2).val = (y 2).val
    rw [f9_2]; omega

/-- An index of the array is in point t's block iff each coordinate is in the block's range on its axis. -/
theorem mem_blk9 (t : Fin cfg0.N) (i : S10x1x256.Idx) :
    i ∈ ((cfg0.win 9).blk t).view.set ↔ ∀ a : Fin 3, win0_9.index t a * S1x1x256.size a ≤ (i a).val ∧ (i a).val < win0_9.index t a * S1x1x256.size a + S1x1x256.size a := by
  show i ∈ ((View.whole main_v24_2).slice (win0_9.rect t)).set ↔ _
  rw [View.set_slice_whole, Rect.mem_set_unit]
  exact Iff.rfl

/-- Row t is the block of point t. -/
theorem cover9 (i : S10x1x256.Idx) : ∃ t : Fin cfg0.N, (cfg0.win 9).flush t = true ∧ i ∈ ((cfg0.win 9).blk t).view.set := by
  have hi0 : (i 0).val < 10 := (i 0).isLt
  have hi1 : (i 1).val < 1 := (i 1).isLt
  have hi2 : (i 2).val < 256 := (i 2).isLt
  have hN : cfg0.N = 10 := N_0
  let t : Fin cfg0.N := ⟨(i 0).val, by omega⟩
  have ht : t.val = (i 0).val := rfl
  obtain ⟨f0_0, f0_1, f1_0, f1_1, f2_0, f2_1, f3_0, f3_1, f4_0, f4_1, f5_0, f5_1, f6_0, f6_1, f7_0, f7_1, f8_0, f8_1, f8_2, f9_0, f9_1, f9_2⟩ := idx_facts t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; rw [f9_0, ht]; omega
  | ⟨1, _⟩ => show win0_9.index t (1 : Fin 3) * 1 ≤ (i 1).val ∧ (i 1).val < win0_9.index t (1 : Fin 3) * 1 + 1; rw [f9_1]; omega
  | ⟨2, _⟩ => show win0_9.index t (2 : Fin 3) * 256 ≤ (i 2).val ∧ (i 2).val < win0_9.index t (2 : Fin 3) * 256 + 256; rw [f9_2]; omega

/-- The array after the run: per tile, the column sums of h·h on the whole arrays. -/
theorem final9 : (dat0 V c).arrAt 9 cfg0.N = G9 V c :=
  (dat0 V c).arrAt_eq_of_cover 9 (G9 V c) (fun t _ => flushed9_eq V c t) (cover9)

/-- Entry (t, 0, j) of the second [10,1,256] array after the run is tile t's sum of the squares of column j of h. -/
theorem sumsq_entry (t : Fin 10) (j : Fin 256) :
    ((dat0 V c).arrAt 9 cfg0.N : S10x1x256.Idx → EReal) (ix3 t (0 : Fin 1) j) = Cert.Spec.partSumSq (H V c) t j :=
  congrFun (final9 V c) (ix3 t (0 : Fin 1) j)

end Cert.KernelIdeal.Region0

end
-- ==== Proof.KRegion1Pay.lean ====
/-
  The second kernel's arithmetic at one entry of its output block.

  For a row `k` of the block and an output column `q`: every one of the 256 features of the row is centred by the
  mean row, scaled by the reciprocal root of the variance row plus the stabiliser, scaled by the gain row, shifted by
  the offset row, and clipped below at the zero word; the clipped features are contracted with column `q` of the
  weights, and the bias row's entry `q` is added.  Changes of float format and casts to the same shape are the
  identity on the extended reals; a one-row array broadcast over the block reads its row.
-/
import proofs.«161687_j6279242186980_2_alg».proof.Proof.Gen.KernelIdeal.Skeleton
import proofs.«161687_j6279242186980_2_alg».proof.Proof.Spec
import Idealize.ShloMosaic.Lib.ValueLayout
import Idealize.ShloMosaic.Lib.Pipeline.Value
import Idealize.ShloMosaic.PureOps.Ideal.Laws

open scoped BigOperators
noncomputable section

namespace Cert.KernelIdeal.Region1
open Cert.KernelIdeal Cert.KernelIdeal.Gen Idealize.ShloMosaic Idealize.ShloMosaic.TcCoe Idealize.ShloMosaic.ValueIdx Idealize.SL.Sem

/-- Feature `j` of block row `k` after normalisation, gain, offset and the positive part. -/
def act (x0 : S5000x256.Idx → EReal) (xvar xmean xgam xbet : S1x256.Idx → EReal) (k : Fin 5000) (j : Fin 256) : EReal :=
  max ((x0 (ix2 k j) - xmean (ix2 (0 : Fin 1) j)) * Ideal.rsqrt (xvar (ix2 (0 : Fin 1) j) + Cert.Spec.wEps) * xgam (ix2 (0 : Fin 1) j)
        + xbet (ix2 (0 : Fin 1) j)) Cert.Spec.w0

/-- The left operand of the contraction at `(k, j)` is `act`. -/
theorem act_apply (x0 : Vec Ideal S5000x256 .bf16) (x3 x8 x14 x18 : Vec Ideal S1x256 .f32) (k : Fin 5000) (j : Fin 256) :
    (truncf .bf16 (maximumf (addf (mulf (mulf (subf (extf .f32 x0 bitsLt_bf16_f32) (broadcastTo S5000x256 x8 broadcasts_S1x256_S5000x256))
        (broadcastTo S5000x256 (rsqrt (addf x3 (broadcast S1x256 (Scalar.ofBits (F := Ideal) .f32 0x3727C5AC#32)))) broadcasts_S1x256_S5000x256))
        (broadcastTo S5000x256 x14 broadcasts_S1x256_S5000x256)) (broadcastTo S5000x256 x18 broadcasts_S1x256_S5000x256))
        (broadcast S5000x256 (Scalar.ofBits (F := Ideal) .f32 0x00000000#32))) bitsLt_bf16_f32 : FVec Ideal S5000x256 .bf16) (ix2 k j)
      = act x0 x3 x8 x14 x18 k j := by
  simp only [truncf_apply, maximumf_apply, addf_apply, mulf_apply, subf_apply, extf_apply, broadcast_apply, broadcastTo_1b_ab_apply]
  rfl

/-- The contraction's left operand index keeps the output's row. -/
theorem lhs_row (i : S5000x128.Idx) (p : dot_S5000x256_S256x128_S5000x128_1_0_0_1_n_n.contr.Idx) :
    (dot_S5000x256_S256x128_S5000x128_1_0_0_1_n_n.lhsIdx i p 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The contraction's right operand index keeps the output's column. -/
theorem rhs_col (i : S5000x128.Idx) (p : dot_S5000x256_S256x128_S5000x128_1_0_0_1_n_n.contr.Idx) :
    (dot_S5000x256_S256x128_S5000x128_1_0_0_1_n_n.rhsIdx i p 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's stored value at entry `(k, q)` of the block: the clipped features of row `k` contracted with column
    `q` of the weights, plus the bias. -/
theorem pay_apply (x0 : Vec Ideal S5000x256 .bf16) (x3 x8 x14 x18 : Vec Ideal S1x256 .f32) (x25 : Vec Ideal S256x128 .f32)
    (x28 : Vec Ideal S1x128 .f32) (k : Fin 5000) (q : Fin 128) :
    k1_pay1 (F := Ideal) x0 x3 x8 x14 x18 x25 x28 (ix2 k q)
      = (∑ j : Fin 256, act x0 x3 x8 x14 x18 k j * x25 (ix2 j q)) + x28 (ix2 (0 : Fin 1) q) := by
  unfold k1_pay1
  simp only [shapeCast_self]
  refine (addf_apply _ _ _).trans (congrArg₂ (· + ·) ?_ (broadcastTo_1b_ab_apply x28 broadcasts_S1x128_S5000x128 k q))
  refine (Ideal.matmul_constant_zero_apply dot_S5000x256_S256x128_S5000x128_1_0_0_1_n_n none _ _ (ix2 k q)).trans ?_
  rw [← Equiv.sum_comp (contrEquiv1 dot_S5000x256_S256x128_S5000x128_1_0_0_1_n_n 256 rfl rfl).symm]
  refine Finset.sum_congr rfl fun j _ => ?_
  have hj := contrEquiv1_symm_val dot_S5000x256_S256x128_S5000x128_1_0_0_1_n_n 256 rfl rfl j
  have el : dot_S5000x256_S256x128_S5000x128_1_0_0_1_n_n.lhsIdx (ix2 k q) ((contrEquiv1 dot_S5000x256_S256x128_S5000x128_1_0_0_1_n_n 256 rfl rfl).symm j) = ix2 k j :=
    funext fun a => Fin.ext (by
      match a with
      | ⟨0, _⟩ => exact lhs_row _ _
      | ⟨1, _⟩ => exact (dot_S5000x256_S256x128_S5000x128_1_0_0_1_n_n.lhsIdx_val_of_single rfl (ix2 k q) _).trans hj)
  have er : dot_S5000x256_S256x128_S5000x128_1_0_0_1_n_n.rhsIdx (ix2 k q) ((contrEquiv1 dot_S5000x256_S256x128_S5000x128_1_0_0_1_n_n 256 rfl rfl).symm j) = ix2 j q :=
    funext fun a => Fin.ext (by
      match a with
      | ⟨0, _⟩ => exact (dot_S5000x256_S256x128_S5000x128_1_0_0_1_n_n.rhsIdx_val_of_single rfl (ix2 k q) _).trans hj
      | ⟨1, _⟩ => exact rhs_col _ _)
  rw [el, er]
  exact congrArg₂ (· * ·) (act_apply x0 x3 x8 x14 x18 k j) rfl

end Cert.KernelIdeal.Region1
end
-- ==== Proof.KRegion1.lean ====
/-
  What the second kernel leaves in its output array, for any contents the region starts from.

  The grid has 10 points; point `t` reads rows `5000 t … 5000 t + 4999` of the first layer's stored result and the
  whole of the five row vectors and of the weights, and writes rows `5000 t … 5000 t + 4999` of the output.  What it
  writes at row `k` of its block is the specification's output at row `5000 t + k`: normalise with the mean and
  variance rows, scale, shift, take the positive part, contract with the weights, add the bias.  The 10 blocks tile the
  50000 rows (row `r` lies in the block of point `r / 5000`), so after the run every entry of the output array is the
  specification's output there.
-/
import proofs.«161687_j6279242186980_2_alg».proof.Proof.Gen.KernelIdeal.Frame
import proofs.«161687_j6279242186980_2_alg».proof.Proof.KRegion1Pay

open scoped BigOperators
noncomputable section

namespace Cert.KernelIdeal.Region1
open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The first layer's stored result as the region finds it. -/
def aH    : Fin 50000 → Fin 256 → EReal := fun p j => (V c main_v24_0 : S50000x256.Idx → EReal) (ix2 p j)
/-- The mean row as the region finds it. -/
def aMean : Fin 256 → EReal := fun j => (V c main_v33 : S1x256.Idx → EReal) (ix2 (0 : Fin 1) j)
/-- The variance row as the region finds it. -/
def aVar  : Fin 256 → EReal := fun j => (V c main_v34 : S1x256.Idx → EReal) (ix2 (0 : Fin 1) j)
/-- The gain row as the region finds it. -/
def aGam  : Fin 256 → EReal := fun j => (V c main_v35 : S1x256.Idx → EReal) (ix2 (0 : Fin 1) j)
/-- The offset row as the region finds it. -/
def aBet  : Fin 256 → EReal := fun j => (V c main_v36 : S1x256.Idx → EReal) (ix2 (0 : Fin 1) j)
/-- The second layer's weights as the region finds them. -/
def aW2   : Fin 256 → Fin 128 → EReal := fun k q => (V c main_arg9 : S256x128.Idx → EReal) (ix2 k q)
/-- The second layer's bias row as the region finds it. -/
def aB2   : Fin 128 → EReal := fun q => (V c main_v37 : S1x128.Idx → EReal) (ix2 (0 : Fin 1) q)

/-- The body's accesses start at the origin of their buffers. -/
theorem hz : (![0, 0] : Fin 2 → Nat) = fun _ => 0 := funext fun a => by fin_cases a <;> rfl

/-- The specification's output as one function of the output array's index. -/
def G : S50000x128.Idx → EReal := fun i =>
  Cert.Spec.outOf (aH V c) (aMean V c) (aVar V c) (aGam V c) (aBet V c) (aW2 V c) (aB2 V c) ⟨(i 0).val, idx2_lt0 i⟩ ⟨(i 1).val, idx2_lt1 i⟩

/-- The block indices of the eight windows at every point: the stored result and the output move with the point along
    the rows; every other window stays at its one block. -/
theorem idx_facts : ∀ t : Fin cfg1.N, win1_7.index t (0 : Fin 2) = t.val ∧ win1_7.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The grid has 10 points. -/
theorem N10 : cfg1.N = 10 := N_1

/-- Block `t` of the first layer's stored result is rows `5000 t … 5000 t + 4999` of the array. -/
theorem blk0_apply (t : Fin cfg1.N) (k : Fin 5000) (j : Fin 256) (r : Fin 50000) (hr : r.val = t.val * 5000 + k.val) :
    (iblk1 V c 0 t : S5000x256.Idx → EReal) (ix2 k j) = aH V c r j := by
  obtain ⟨-, -, e0, e1, -⟩ := idx_facts t
  unfold iblk1 aH
  rw [View.read_apply]
  show V c main_v24_0 (((cfg1.win 0).blk t).view.emb (ix2 k j)) = V c main_v24_0 (ix2 r j)
  refine congrArg _ (funext fun a => Fin.ext ?_)
  match a with
  | ⟨0, _⟩ => show win1_0.index t (0 : Fin 2) * 5000 + 1 * k.val = r.val; rw [e0, hr]; omega
  | ⟨1, _⟩ => show win1_0.index t (1 : Fin 2) * 256 + 1 * j.val = j.val; rw [e1]; omega

/-- Every point's block of the mean row is the whole row. -/
theorem blk1_apply (t : Fin cfg1.N) (j : Fin 256) :
    (iblk1 V c 1 t : S1x256.Idx → EReal) (ix2 (0 : Fin 1) j) = aMean V c j := by
  have e0 : win1_1.index t (0 : Fin 2) = 0 := by have := idx_facts t; omega
  have e1 : win1_1.index t (1 : Fin 2) = 0 := by have := idx_facts t; omega
  unfold iblk1 aMean
  rw [View.read_apply]
  show V c main_v33 (((cfg1.win 1).blk t).view.emb (ix2 (0 : Fin 1) j)) = V c main_v33 (ix2 (0 : Fin 1) j)
  refine congrArg _ (funext fun a => Fin.ext ?_)
  match a with
  | ⟨0, _⟩ => show win1_1.index t (0 : Fin 2) * 1 + 1 * 0 = 0; rw [e0]
  | ⟨1, _⟩ => show win1_1.index t (1 : Fin 2) * 256 + 1 * j.val = j.val; rw [e1]; omega

/-- Every point's block of the variance row is the whole row. -/
theorem blk2_apply (t : Fin cfg1.N) (j : Fin 256) :
    (iblk1 V c 2 t : S1x256.Idx → EReal) (ix2 (0 : Fin 1) j) = aVar V c j := by
  have e0 : win1_2.index t (0 : Fin 2) = 0 := by have := idx_facts t; omega
  have e1 : win1_2.index t (1 : Fin 2) = 0 := by have := idx_facts t; omega
  unfold iblk1 aVar
  rw [View.read_apply]
  show V c main_v34 (((cfg1.win 2).blk t).view.emb (ix2 (0 : Fin 1) j)) = V c main_v34 (ix2 (0 : Fin 1) j)
  refine congrArg _ (funext fun a => Fin.ext ?_)
  match a with
  | ⟨0, _⟩ => show win1_2.index t (0 : Fin 2) * 1 + 1 * 0 = 0; rw [e0]
  | ⟨1, _⟩ => show win1_2.index t (1 : Fin 2) * 256 + 1 * j.val = j.val; rw [e1]; omega

/-- Every point's block of the gain row is the whole row. -/
theorem blk3_apply (t : Fin cfg1.N) (j : Fin 256) :
    (iblk1 V c 3 t : S1x256.Idx → EReal) (ix2 (0 : Fin 1) j) = aGam V c j := by
  have e0 : win1_3.index t (0 : Fin 2) = 0 := by have := idx_facts t; omega
  have e1 : win1_3.index t (1 : Fin 2) = 0 := by have := idx_facts t; omega
  unfold iblk1 aGam
  rw [View.read_apply]
  show V c main_v35 (((cfg1.win 3).blk t).view.emb (ix2 (0 : Fin 1) j)) = V c main_v35 (ix2 (0 : Fin 1) j)
  refine congrArg _ (funext fun a => Fin.ext ?_)
  match a with
  | ⟨0, _⟩ => show win1_3.index t (0 : Fin 2) * 1 + 1 * 0 = 0; rw [e0]
  | ⟨1, _⟩ => show win1_3.index t (1 : Fin 2) * 256 + 1 * j.val = j.val; rw [e1]; omega

/-- Every point's block of the offset row is the whole row. -/
theorem blk4_apply (t : Fin cfg1.N) (j : Fin 256) :
    (iblk1 V c 4 t : S1x256.Idx → EReal) (ix2 (0 : Fin 1) j) = aBet V c j := by
  have e0 : win1_4.index t (0 : Fin 2) = 0 := by have := idx_facts t; omega
  have e1 : win1_4.index t (1 : Fin 2) = 0 := by have := idx_facts t; omega
  unfold iblk1 aBet
  rw [View.read_apply]
  show V c main_v36 (((cfg1.win 4).blk t).view.emb (ix2 (0 : Fin 1) j)) = V c main_v36 (ix2 (0 : Fin 1) j)
  refine congrArg _ (funext fun a => Fin.ext ?_)
  match a with
  | ⟨0, _⟩ => show win1_4.index t (0 : Fin 2) * 1 + 1 * 0 = 0; rw [e0]
  | ⟨1, _⟩ => show win1_4.index t (1 : Fin 2) * 256 + 1 * j.val = j.val; rw [e1]; omega

/-- Every point's block of the weights is the whole array. -/
theorem blk5_apply (t : Fin cfg1.N) (j : Fin 256) (q : Fin 128) :
    (iblk1 V c 5 t : S256x128.Idx → EReal) (ix2 j q) = aW2 V c j q := by
  have e0 : win1_5.index t (0 : Fin 2) = 0 := by have := idx_facts t; omega
  have e1 : win1_5.index t (1 : Fin 2) = 0 := by have := idx_facts t; omega
  unfold iblk1 aW2
  rw [View.read_apply]
  show V c main_arg9 (((cfg1.win 5).blk t).view.emb (ix2 j q)) = V c main_arg9 (ix2 j q)
  refine congrArg _ (funext fun a => Fin.ext ?_)
  match a with
  | ⟨0, _⟩ => show win1_5.index t (0 : Fin 2) * 256 + 1 * j.val = j.val; rw [e0]; omega
  | ⟨1, _⟩ => show win1_5.index t (1 : Fin 2) * 128 + 1 * q.val = q.val; rw [e1]; omega

/-- Every point's block of the bias row is the whole row. -/
theorem blk6_apply (t : Fin cfg1.N) (q : Fin 128) :
    (iblk1 V c 6 t : S1x128.Idx → EReal) (ix2 (0 : Fin 1) q) = aB2 V c q := by
  have e0 : win1_6.index t (0 : Fin 2) = 0 := by have := idx_facts t; omega
  have e1 : win1_6.index t (1 : Fin 2) = 0 := by have := idx_facts t; omega
  unfold iblk1 aB2
  rw [View.read_apply]
  show V c main_v37 (((cfg1.win 6).blk t).view.emb (ix2 (0 : Fin 1) q)) = V c main_v37 (ix2 (0 : Fin 1) q)
  refine congrArg _ (funext fun a => Fin.ext ?_)
  match a with
  | ⟨0, _⟩ => show win1_6.index t (0 : Fin 2) * 1 + 1 * 0 = 0; rw [e0]
  | ⟨1, _⟩ => show win1_6.index t (1 : Fin 2) * 128 + 1 * q.val = q.val; rw [e1]; omega

/-- What point `t`'s body stores at entry `(k, q)` of its block is the specification's output at row `5000 t + k`. -/
theorem tile_entry (t : Fin cfg1.N) (k : Fin 5000) (q : Fin 128) (r : Fin 50000) (hr : r.val = t.val * 5000 + k.val) :
    k1_pay1 (F := Ideal) (iblk1 V c 0 t) (iblk1 V c 2 t) (iblk1 V c 1 t) (iblk1 V c 3 t) (iblk1 V c 4 t) (iblk1 V c 5 t) (iblk1 V c 6 t) (ix2 k q)
      = Cert.Spec.outOf (aH V c) (aMean V c) (aVar V c) (aGam V c) (aBet V c) (aW2 V c) (aB2 V c) r q := by
  refine (pay_apply (iblk1 V c 0 t) (iblk1 V c 2 t) (iblk1 V c 1 t) (iblk1 V c 3 t) (iblk1 V c 4 t) (iblk1 V c 5 t) (iblk1 V c 6 t) k q).trans ?_
  unfold Cert.Spec.outOf
  refine congrArg₂ (· + ·) (Finset.sum_congr rfl fun j _ => congrArg₂ (· * ·) ?_ (blk5_apply V c t j q)) (blk6_apply V c t q)
  unfold act
  rw [blk0_apply V c t k j r hr, blk1_apply V c t j, blk2_apply V c t j, blk3_apply V c t j, blk4_apply V c t j]

/-- What point `t` writes back is block `t` of the specification's output. -/
theorem flushed_eq (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S5000x256) hz, View.ld_unit_zero (S := S1x256) hz, View.ld_unit_zero (S := S256x128) hz, View.ld_unit_zero (S := S1x128) hz]
  funext y
  have hy0 : (y 0).val < 5000 := (y 0).isLt
  have hy1 : (y 1).val < 128 := (y 1).isLt
  have ht : t.val < 10 := by have := t.isLt; have := N10; omega
  obtain ⟨f0, f1, -⟩ := idx_facts t
  have ex : (win1 7).xinj (grid1.coords t) y = ix2 (⟨(y 0).val, hy0⟩ : Fin 5000) (⟨(y 1).val, hy1⟩ : Fin 128) :=
    funext fun a => by match a with | ⟨0, _⟩ => rfl | ⟨1, _⟩ => rfl
  show k1_pay1 (F := Ideal) (iblk1 V c 0 t) (iblk1 V c 2 t) (iblk1 V c 1 t) (iblk1 V c 3 t) (iblk1 V c 4 t) (iblk1 V c 5 t) (iblk1 V c 6 t) ((win1 7).xinj (grid1.coords t) y)
    = G V c (((cfg1.win 7).blk t).view.emb y)
  rw [ex]
  refine (tile_entry V c t ⟨(y 0).val, hy0⟩ ⟨(y 1).val, hy1⟩ ⟨t.val * 5000 + (y 0).val, by omega⟩ rfl).trans ?_
  have e0 : (⟨t.val * 5000 + (y 0).val, by omega⟩ : Fin 50000)
      = ⟨((((cfg1.win 7).blk t).view.emb y) 0).val, idx2_lt0 (((cfg1.win 7).blk t).view.emb y)⟩ :=
    Fin.ext (by show t.val * 5000 + (y 0).val = win1_7.index t (0 : Fin 2) * 5000 + 1 * (y 0).val; rw [f0]; omega)
  have e1 : (⟨(y 1).val, hy1⟩ : Fin 128)
      = ⟨((((cfg1.win 7).blk t).view.emb y) 1).val, idx2_lt1 (((cfg1.win 7).blk t).view.emb y)⟩ :=
    Fin.ext (by show (y 1).val = win1_7.index t (1 : Fin 2) * 128 + 1 * (y 1).val; rw [f1]; omega)
  rw [e0, e1]
  rfl

/-- An index of the array is in point `t`'s block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v38).slice (win1_7.rect t)).set ↔ _
  rw [View.set_slice_whole, Rect.mem_set_unit]
  exact Iff.rfl

/-- Row `r` of the array lies in the block of point `r / 5000`. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  refine ⟨⟨(i 0).val / 5000, by rw [N10]; omega⟩, flush1_7 _, ?_⟩
  rw [mem_blk]
  obtain ⟨f0, f1, -⟩ := idx_facts ⟨(i 0).val / 5000, by rw [N10]; omega⟩
  intro a
  match a with
  | ⟨0, _⟩ => show win1_7.index _ (0 : Fin 2) * 5000 ≤ (i 0).val ∧ (i 0).val < win1_7.index _ (0 : Fin 2) * 5000 + 5000; rw [f0]; show (i 0).val / 5000 * 5000 ≤ (i 0).val ∧ (i 0).val < (i 0).val / 5000 * 5000 + 5000; omega
  | ⟨1, _⟩ => show win1_7.index _ (1 : Fin 2) * 128 ≤ (i 1).val ∧ (i 1).val < win1_7.index _ (1 : Fin 2) * 128 + 128; rw [f1]; omega

/-- The output array after the second kernel's run: the specification's output at every entry. -/
theorem final : (dat1 V c).arrAt 7 cfg1.N = G V c :=
  (dat1 V c).arrAt_eq_of_cover 7 (G V c) (fun t _ => flushed_eq V c t) (cover)

/-- Entry `(r, q)` of the output array after the run. -/
theorem out_entry (r : Fin 50000) (q : Fin 128) :
    ((dat1 V c).arrAt 7 cfg1.N : S50000x128.Idx → EReal) (ix2 r q)
      = Cert.Spec.outOf (aH V c) (aMean V c) (aVar V c) (aGam V c) (aBet V c) (aW2 V c) (aB2 V c) r q := by
  rw [final]
  rfl

end Cert.KernelIdeal.Region1
end
-- ==== Proof.LibRowScatter.lean ====
/-
  A float scatter-add of ROWS, read at an entry.

  The operand is an [N, C] array, the scatter indices an [E, 1] column of integers, the updates an [E, C] array;
  the dimension numbers are those of `jax.ops.segment_sum` of row vectors: update row `e` is added, column by column,
  into operand row `idx[e, 0]` (read signed), and is dropped when that is not a row of the operand. At the exact
  instance the result entry (n, q) is therefore the operand entry plus the sum, over the edges `e` whose index word
  names `n`, of update entry (e, q). Any extents.
-/
import Idealize.ShloMosaic.PureOps.Ideal
import Idealize.ShloMosaic.Lib.ValueIdx

noncomputable section

namespace Idealize.ShloMosaic.RowScatter

open Idealize.ShloMosaic Idealize.ShloMosaic.ValueIdx

/-- The dimension numbers of a row scatter: the updates' axis 1 is the window axis, the operand's axis 0 the inserted
    one and the one the (length-one) index vector addresses, the index vector along the indices' axis 1. Their
    conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's row axis the window starts at the edge's index word, read signed: the map names axis 0, and the
    scatter-indices entry it reads is (j 0, 0). -/
theorem start_zero {N E C w : Nat}
    (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which the map does not name, the window starts at 0. -/
theorem start_one {N E C w : Nat}
    (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N E C wf).start j idx 1 = 0 := by
  unfold ScatterDims.start
  rw [dif_neg (show ¬ (1 : Fin 2) ∈ ([0] : List (Fin 2)) by decide)]

/-- The row axis is inserted, so the window coordinate there is 0. -/
theorem window_zero {N E C : Nat}
    (wf : ScatterDims.WF ⟨2, ![N, C]⟩ ⟨2, ![E, 1]⟩ ⟨2, ![E, C]⟩ [1] [0] [0] 1)
    (j : (⟨2, ![E, C]⟩ : Shape).Idx) :
    (rowScatterDims N E C wf).window j 0 = 0 := by
  unfold ScatterDims.window
  rw [dif_neg (show ¬ (0 : Fin 2) ∈ (rowScatterDims N E C wf).sKept by
    simp [ScatterDims.sKept, Shape.kept])]

/-- The column axis is the one kept axis, and the updates' window axis goes to it: the window coordinate there is the
    update's column. -/
theorem window_one {N E C : Nat}
    (wf : ScatterDims.WF ⟨2, ![N, C]⟩ ⟨2, ![E, 1]⟩ ⟨2, ![E, C]⟩ [1] [0] [0] 1)
    (j : (⟨2, ![E, C]⟩ : Shape).Idx) :
    (rowScatterDims N E C wf).window j 1 = (j 1).val := by
  unfold ScatterDims.window
  rw [dif_pos (show (1 : Fin 2) ∈ (rowScatterDims N E C wf).sKept by
    simp [ScatterDims.sKept, Shape.kept])]
  rfl

/-- Update entry (e, q) lands on operand entry (n, q') exactly when edge `e`'s index word, read signed, is `n` and the
    columns agree. -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (n : Fin N) (q' : Fin C) :
    (rowScatterDims N E C wf).resultIdx? (ix2 e q) idx = some (ix2 n q')
      ↔ (idx (ix2 e (0 : Fin 1))).toInt = (n.val : ℤ) ∧ q = q' := by
  -- start + window on the two axes: the index word on the row axis, the update's column on the column axis
  have hs0 : (rowScatterDims N E C wf).start (ix2 e q) idx 0 + (rowScatterDims N E C wf).window (ix2 e q) 0
      = (idx (ix2 e (0 : Fin 1))).toInt := by
    rw [start_zero, window_zero]; simp; rfl
  have hs1 : (rowScatterDims N E C wf).start (ix2 e q) idx 1 + (rowScatterDims N E C wf).window (ix2 e q) 1
      = (q.val : ℤ) := by
    rw [start_one, window_one]; simp; rfl
  unfold ScatterDims.resultIdx?
  by_cases h : ∀ a, 0 ≤ (rowScatterDims N E C wf).start (ix2 e q) idx a + (rowScatterDims N E C wf).window (ix2 e q) a
      ∧ (rowScatterDims N E C wf).start (ix2 e q) idx a + (rowScatterDims N E C wf).window (ix2 e q) a
        < (⟨2, ![N, C]⟩ : Shape).size a
  · -- the update lands inside the operand: compare the landing index with (n, q') coordinate by coordinate
    rw [dif_pos h, Option.some.injEq]
    constructor
    · intro hEq
      have e0 := congrArg Fin.val (congrFun hEq 0)
      have e1 := congrArg Fin.val (congrFun hEq 1)
      have h0 := (h 0).1
      change ((rowScatterDims N E C wf).start (ix2 e q) idx 0 + (rowScatterDims N E C wf).window (ix2 e q) 0).toNat
        = n.val at e0
      change ((rowScatterDims N E C wf).start (ix2 e q) idx 1 + (rowScatterDims N E C wf).window (ix2 e q) 1).toNat
        = q'.val at e1
      rw [hs0] at e0 h0
      rw [hs1] at e1
      exact ⟨by omega, Fin.ext (by omega)⟩
    · rintro ⟨hS, rfl⟩
      funext a
      refine Fin.ext ?_
      match a with
      | ⟨0, _⟩ =>
        show ((rowScatterDims N E C wf).start (ix2 e q) idx 0 + (rowScatterDims N E C wf).window (ix2 e q) 0).toNat = n.val
        rw [hs0, hS]; simp
      | ⟨1, _⟩ =>
        show ((rowScatterDims N E C wf).start (ix2 e q) idx 1 + (rowScatterDims N E C wf).window (ix2 e q) 1).toNat = q.val
        rw [hs1]; simp
  · -- the update is dropped: then the index word cannot be a row n < N (with it, both axes would be in range)
    rw [dif_neg h]
    constructor
    · intro hc; cases hc
    · rintro ⟨hS, rfl⟩
      exfalso; apply h
      intro a
      match a with
      | ⟨0, _⟩ =>
        show 0 ≤ (rowScatterDims N E C wf).start (ix2 e q) idx 0 + (rowScatterDims N E C wf).window (ix2 e q) 0
          ∧ (rowScatterDims N E C wf).start (ix2 e q) idx 0 + (rowScatterDims N E C wf).window (ix2 e q) 0 < (N : ℤ)
        rw [hs0, hS]
        exact ⟨by omega, by exact_mod_cast n.isLt⟩
      | ⟨1, _⟩ =>
        show 0 ≤ (rowScatterDims N E C wf).start (ix2 e q) idx 1 + (rowScatterDims N E C wf).window (ix2 e q) 1
          ∧ (rowScatterDims N E C wf).start (ix2 e q) idx 1 + (rowScatterDims N E C wf).window (ix2 e q) 1 < (C : ℤ)
        rw [hs1]
        exact ⟨by omega, by exact_mod_cast q.isLt⟩

/-- THE ROW SCATTER-ADD READ AT (n, q): the operand entry plus the sum over the edges landing on row `n` of their
    update entries in column `q`. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (rowScatterDims N E C wf) x idx upd (ix2 n q)
      = x (ix2 n q) + ∑ e : Fin E, if (idx (ix2 e (0 : Fin 1))).toInt = (n.val : ℤ) then upd (ix2 e q) else 0 := by
  unfold Ideal.hostScatterAdd
  congr 1
  -- the filtered sum over update entries is the double sum over (edge, column) of the indicator times the entry
  rw [Finset.sum_filter, sum_idx2]
  refine Finset.sum_congr rfl (fun e _ => ?_)
  -- for one edge, only the column q can land on (n, q), and it does exactly when the edge's index word is n
  simp only [rowScatter_resultIdx_iff]
  by_cases hS : (idx (ix2 e (0 : Fin 1))).toInt = (n.val : ℤ)
  · simp only [hS, true_and, if_true]
    rw [Finset.sum_ite_eq']
    simp
  · simp [hS]

end Idealize.ShloMosaic.RowScatter

end
-- ==== Proof.KHost0.lean ====
/-
  The first host stretch of the kernel program: the scatter-mean of the edge features into the nodes.

  The stretch joins a column of ones to the [800000, 96] edge features, scatter-adds the rows of the joined
  [800000, 97] array into a zero [50000, 97] array at each edge's target node (row 1 of the edge index, read signed; an
  edge whose target is not a node is dropped), and divides the first 96 columns of the result by the last one, the
  node's edge count, taken as at least one.

  At the exact instance the scatter-add is the exact sum, so entry (n, k) of the quotient is

      (0 + ∑ over edges e with target n of feature k of e) / max (0 + ∑ over edges e with target n of 1) 1,

  the scatter-mean of the specification.  The other operations are re-indexings (a slice, a reshape, a broadcast, a
  join of two arrays along the columns): each result entry is the operand's entry at the matching index.
-/
import proofs.«161687_j6279242186980_2_alg».proof.Proof.Gen.KernelIdeal.Launch
import proofs.«161687_j6279242186980_2_alg».proof.Proof.Spec
import proofs.«161687_j6279242186980_2_alg».proof.Proof.LibRowScatter
import Idealize.ShloMosaic.Lib.Pipeline.Value
import Idealize.ShloMosaic.Lib.ValueIdx

set_option maxRecDepth 16384

noncomputable section

namespace Cert.KernelIdeal.Host0

open Cert.KernelIdeal Cert.KernelIdeal.Gen Idealize.ShloMosaic Idealize.ShloMosaic.TcCoe Idealize.ShloMosaic.ValueIdx Idealize.SL.Sem

variable (W : Valuation τ sig (Elt Ideal))

/-! ## The scatter-mean of the first host stretch, as terms over the arrays it starts from -/

/-- The edges' target column as the scatter reads it: row 1 of the edge index, as an [800000, 1] column. -/
def idxv (x1 : S2x800000.Idx → BitVec 32) : S800000x1.Idx → BitVec 32 :=
  broadcastInDim S800000x1 ![0] bcast_S800000_S800000x1_0
    (shapeCast S800000 (extractStridedSlice S1x800000 ![1, 0] x1 slices_S2x800000_S1x800000_1_0)
      shapeCasts_S1x800000_S800000)

/-- The updates: the edge features with a column of ones joined on the right. -/
def updv (x2 : S800000x96.Idx → EReal) : S800000x97.Idx → EReal :=
  concatenate S800000x97 1
    [⟨S800000x96, x2⟩,
     ⟨S800000x1, broadcastInDim S800000x1 ![] bcast_S_S800000x1 (constant (F := Ideal) S_ .f32 0x3F800000#32)⟩]
    concatenates_S800000x96_S800000x1_S800000x97_d1

/-- The scatter-add of the updates into a zero [50000, 97] array at the edges' targets. -/
def scat (x1 : S2x800000.Idx → BitVec 32) (x2 : S800000x96.Idx → EReal) : S50000x97.Idx → EReal :=
  Host.scatterAdd (F := Ideal) scatter_S50000x97_S800000x1_S800000x97_1_0_0_1
    (broadcastInDim S50000x97 ![] bcast_S_S50000x97 (constant (F := Ideal) S_ .f32 0x00000000#32))
    (idxv x1) (updv x2)

/-- From a scattered [50000, 97] array: each node's edge count (the last column), taken as at least one. -/
def cntOf (s : S50000x97.Idx → EReal) : S50000x1.Idx → EReal :=
  maximumf (extractStridedSlice S50000x1 ![0, 96] s slices_S50000x97_S50000x1_0_96)
    (broadcastInDim S50000x1 ![] bcast_S_S50000x1 (constant (F := Ideal) S_ .f32 0x3F800000#32))

/-- From a scattered [50000, 97] array: the first 96 columns over the count. -/
def aggrOf (s : S50000x97.Idx → EReal) : S50000x96.Idx → EReal :=
  Host.divf (F := Ideal) (φ := .f32) (extractStridedSlice S50000x96 ![0, 0] s slices_S50000x97_S50000x96_0_0)
    (broadcastInDim S50000x96 ![0, 1] bcast_S50000x1_S50000x96_0_1 (cntOf s))

/-! ## The terms read at an index -/

/-- The index column at edge `e` is row 1 of the edge index at `e`. -/
theorem idxv_apply (x1 : S2x800000.Idx → BitVec 32) (e : Fin 800000) :
    idxv x1 (ix2 e (0 : Fin 1)) = x1 (ix2 (1 : Fin 2) e) :=
  (broadcastInDim_apply ![0] bcast_S800000_S800000x1_0 _ (ix2 e (0 : Fin 1)) (ix1 e) (fun a => match a with
    | ⟨0, _⟩ => by show e.val = if (800000 : Nat) = 1 then 0 else e.val; rw [if_neg (by decide)])).trans
  ((shapeCast_apply _ shapeCasts_S1x800000_S800000 (ix1 e) (ix2 (0 : Fin 1) e)
    (by rewrite [Shape.rowMajor_val_two, Shape.rowMajor_val_one]; show 0 * 800000 + e.val = e.val; omega)).trans
  (extractStridedSlice_apply ![1, 0] x1 slices_S2x800000_S1x800000_1_0 (ix2 (0 : Fin 1) e) (ix2 (1 : Fin 2) e)
    (fun a => match a with
      | ⟨0, _⟩ => by show 1 = 1 + 0; rfl
      | ⟨1, _⟩ => by show e.val = 0 + e.val; omega)))

/-- A column below 96 of the updates is the edge feature's. -/
theorem updv_left (x2 : S800000x96.Idx → EReal) (e : Fin 800000) (k : Fin 96) :
    updv x2 (ix2 e (⟨k.val, by omega⟩ : Fin 97)) = x2 (ix2 e k) :=
  concatenate_pair_apply_left (t := S800000x97) (s₁ := S800000x96) (s₂ := S800000x1) (1 : Fin 2) x2 _ concatenates_S800000x96_S800000x1_S800000x97_d1
    (ix2 e (⟨k.val, by omega⟩ : Fin 97)) rfl (ix2 e k) (fun b => match b with
      | ⟨0, _⟩ => rfl
      | ⟨1, _⟩ => rfl)

/-- Column 96 of the updates is the word one. -/
theorem updv_right (x2 : S800000x96.Idx → EReal) (e : Fin 800000) :
    updv x2 (ix2 e (⟨96, by omega⟩ : Fin 97)) = Cert.Spec.w1 :=
  (concatenate_pair_apply_right (t := S800000x97) (s₁ := S800000x96) (s₂ := S800000x1) (1 : Fin 2) x2 _ concatenates_S800000x96_S800000x1_S800000x97_d1
    (ix2 e (⟨96, by omega⟩ : Fin 97)) rfl rfl (ix2 e (0 : Fin 1)) (fun b hb => match b, hb with
      | ⟨0, _⟩, _ => rfl
      | ⟨1, _⟩, hb => absurd rfl hb) (by show 0 + 96 = 96; rfl)).trans
  (broadcastInDim_apply ![] bcast_S_S800000x1 _ (ix2 e (0 : Fin 1)) ix0 (fun a => a.elim0))

/-- The scatter-add is the exact row scatter-add at the ideal instance, with the row-scatter dimension numbers. -/
theorem scat_def (x1 : S2x800000.Idx → BitVec 32) (x2 : S800000x96.Idx → EReal) :
    scat x1 x2 = Ideal.hostScatterAdd
      (RowScatter.rowScatterDims 50000 800000 97 scatter_S50000x97_S800000x1_S800000x97_1_0_0_1_wf)
      (broadcastInDim S50000x97 ![] bcast_S_S50000x97 (constant (F := Ideal) S_ .f32 0x00000000#32)) (idxv x1) (updv x2) := rfl

/-- The scatter-add at (n, q): the zero word plus the sum, over the edges whose target is node `n`, of the update's
    column `q`. -/
theorem scat_apply (x1 : S2x800000.Idx → BitVec 32) (x2 : S800000x96.Idx → EReal) (n : Fin 50000) (q : Fin 97) :
    scat x1 x2 (ix2 n q)
      = Cert.Spec.w0 + ∑ e : Fin 800000, if (x1 (ix2 (1 : Fin 2) e)).toInt = (n.val : ℤ) then updv x2 (ix2 e q) else 0 := by
  rw [scat_def,
    RowScatter.rowScatterAdd_apply scatter_S50000x97_S800000x1_S800000x97_1_0_0_1_wf
      (broadcastInDim S50000x97 ![] bcast_S_S50000x97 (constant (F := Ideal) S_ .f32 0x00000000#32)) (idxv x1) (updv x2) n q,
    broadcastInDim_apply ![] bcast_S_S50000x97 (constant (F := Ideal) S_ .f32 0x00000000#32) (ix2 n q) ix0 (fun a => a.elim0),
    constant_apply]
  simp only [idxv_apply]

/-- The count at node `n`: column 96 of the scattered array, at least one. -/
theorem cntOf_apply (s : S50000x97.Idx → EReal) (n : Fin 50000) :
    cntOf s (ix2 n (0 : Fin 1)) = max (s (ix2 n (⟨96, by omega⟩ : Fin 97))) Cert.Spec.w1 := by
  unfold cntOf
  rw [maximumf_apply,
    extractStridedSlice_apply ![0, 96] s slices_S50000x97_S50000x1_0_96 (ix2 n (0 : Fin 1))
      (ix2 n (⟨96, by omega⟩ : Fin 97)) (fun a => match a with
        | ⟨0, _⟩ => by show n.val = 0 + n.val; omega
        | ⟨1, _⟩ => by show 96 = 96 + 0; rfl),
    broadcastInDim_apply ![] bcast_S_S50000x1 (constant (F := Ideal) S_ .f32 0x3F800000#32) (ix2 n (0 : Fin 1)) ix0
      (fun a => a.elim0),
    constant_apply]

/-- The quotient at (n, k): column `k` of the scattered array over the count. -/
theorem aggrOf_apply (s : S50000x97.Idx → EReal) (n : Fin 50000) (k : Fin 96) :
    aggrOf s (ix2 n k)
      = Ideal.div (s (ix2 n (⟨k.val, by omega⟩ : Fin 97))) (max (s (ix2 n (⟨96, by omega⟩ : Fin 97))) Cert.Spec.w1) := by
  unfold aggrOf
  show Ideal.div (extractStridedSlice S50000x96 ![0, 0] s slices_S50000x97_S50000x96_0_0 (ix2 n k))
      (broadcastInDim S50000x96 ![0, 1] bcast_S50000x1_S50000x96_0_1 (cntOf s) (ix2 n k)) = _
  rw [extractStridedSlice_apply ![0, 0] s slices_S50000x97_S50000x96_0_0 (ix2 n k)
      (ix2 n (⟨k.val, by omega⟩ : Fin 97)) (fun a => match a with
        | ⟨0, _⟩ => by show n.val = 0 + n.val; omega
        | ⟨1, _⟩ => by show k.val = 0 + k.val; omega),
    broadcastInDim_apply ![0, 1] bcast_S50000x1_S50000x96_0_1 (cntOf s) (ix2 n k) (ix2 n (0 : Fin 1)) (fun a => match a with
        | ⟨0, _⟩ => by show n.val = if (50000 : Nat) = 1 then 0 else n.val; rw [if_neg (by decide)]
        | ⟨1, _⟩ => by show 0 = if (1 : Nat) = 1 then 0 else k.val; rw [if_pos rfl]),
    cntOf_apply]

/-! ## What the stretch leaves in the scatter-mean's buffer -/

/-- The edges' target node, read signed from row 1 of the edge index the stretch starts from. -/
def col : Fin 800000 → ℤ :=
  fun e => ((W (Proc.devRef .tc main_arg1) : S2x800000.Idx → BitVec 32) (ix2 (1 : Fin 2) e)).toInt

set_option maxHeartbeats 800000 in
/-- The buffer of the scatter-mean after the stretch is the composed term over the edge index and the edge
    features the stretch starts from. -/
theorem v12_eq : (StableHlo.after (hostOps0 (F := Ideal)) W (Proc.devRef .tc main_v12) : S50000x96.Idx → EReal)
    = aggrOf (scat (W (Proc.devRef .tc main_arg1)) (W (Proc.devRef .tc main_arg2))) := by
  after_results
  unfold aggrOf cntOf scat idxv updv
  rfl

/-- The scatter-mean of the edge features into the nodes, entry by entry. -/
theorem e_entry (n : Fin 50000) (k : Fin 96) :
    (StableHlo.after (hostOps0 (F := Ideal)) W (Proc.devRef .tc main_v12) : S50000x96.Idx → EReal) (ix2 n k)
      = Cert.Spec.eAggr (col W) (fun e k => (W (Proc.devRef .tc main_arg2) : S800000x96.Idx → EReal) (ix2 e k)) n k := by
  rw [v12_eq, aggrOf_apply, scat_apply, scat_apply]
  simp only [updv_left, updv_right]
  rfl

end Cert.KernelIdeal.Host0
end
-- ==== Proof.KHost0Rest.lean ====
/-
  The plain entries of the host operations before the first kernel call.

  The per-node global feature is the gather of the global table at each node's batch index, a negative index wrapped
  by the table's 64 rows: the same operations, in the same order, that the reference applies.  The three weight blocks
  are rows 0–127, 128–223 and 224–287 of the first layer's weights; the bias is re-laid as one row.  No operation of
  the stretch writes the node features.
-/
import proofs.«161687_j6279242186980_2_alg».proof.Proof.Gen.KernelIdeal.Launch
import proofs.«161687_j6279242186980_2_alg».proof.Proof.Gen.ReferenceIdeal.Read
import Idealize.ShloMosaic.Lib.ValueLayout
import Idealize.ShloMosaic.Lib.Pipeline.Value

namespace Cert.KernelIdeal.Host0R
open Cert.KernelIdeal Cert.KernelIdeal.Gen Idealize.ShloMosaic Idealize.ShloMosaic.TcCoe Idealize.ShloMosaic.ValueIdx Idealize.SL.Sem

variable (W : Valuation τ sig (Elt Ideal))

/-- The per-node global feature: the reference's gather of the global table at the wrapped batch indices. -/
theorem g_eq : (StableHlo.after (hostOps0 (F := Ideal)) W (Proc.devRef .tc main_v19) : S50000x64.Idx → EReal)
    = Cert.ReferenceIdeal.Read.val_main_v19 (F := Ideal) (W (Proc.devRef .tc main_arg3)) (W (Proc.devRef .tc main_arg4)) := by
  after_results_simp
  rfl

/-- The first weight block is rows 0–127 of the first layer's weights. -/
theorem wx_entry (k : Fin 128) (j : Fin 256) : (StableHlo.after (hostOps0 (F := Ideal)) W (Proc.devRef .tc main_v20) : S128x256.Idx → EReal) (ix2 k j)
    = (W (Proc.devRef .tc main_arg5) : S288x256.Idx → EReal) (ix2 (⟨k.val, by omega⟩ : Fin 288) j) := by
  after_results
  exact extractStridedSlice_apply ![0, 0] _ slices_S288x256_S128x256_0_0 (ix2 k j) (ix2 (⟨k.val, by omega⟩ : Fin 288) j) (fun a => match a with
    | ⟨0, _⟩ => by show k.val = 0 + k.val; omega
    | ⟨1, _⟩ => by show j.val = 0 + j.val; omega)

/-- The second weight block is rows 128–223. -/
theorem we_entry (k : Fin 96) (j : Fin 256) : (StableHlo.after (hostOps0 (F := Ideal)) W (Proc.devRef .tc main_v21) : S96x256.Idx → EReal) (ix2 k j)
    = (W (Proc.devRef .tc main_arg5) : S288x256.Idx → EReal) (ix2 (⟨128 + k.val, by omega⟩ : Fin 288) j) := by
  after_results
  exact extractStridedSlice_apply ![128, 0] _ slices_S288x256_S96x256_128_0 (ix2 k j) (ix2 (⟨128 + k.val, by omega⟩ : Fin 288) j) (fun a => match a with
    | ⟨0, _⟩ => by show 128 + k.val = 128 + k.val; omega
    | ⟨1, _⟩ => by show j.val = 0 + j.val; omega)

/-- The third weight block is rows 224–287. -/
theorem wg_entry (k : Fin 64) (j : Fin 256) : (StableHlo.after (hostOps0 (F := Ideal)) W (Proc.devRef .tc main_v22) : S64x256.Idx → EReal) (ix2 k j)
    = (W (Proc.devRef .tc main_arg5) : S288x256.Idx → EReal) (ix2 (⟨224 + k.val, by omega⟩ : Fin 288) j) := by
  after_results
  exact extractStridedSlice_apply ![224, 0] _ slices_S288x256_S64x256_224_0 (ix2 k j) (ix2 (⟨224 + k.val, by omega⟩ : Fin 288) j) (fun a => match a with
    | ⟨0, _⟩ => by show 224 + k.val = 224 + k.val; omega
    | ⟨1, _⟩ => by show j.val = 0 + j.val; omega)

/-- The first layer's bias, re-laid as one row. -/
theorem b1_entry (j : Fin 256) : (StableHlo.after (hostOps0 (F := Ideal)) W (Proc.devRef .tc main_v23) : S1x256.Idx → EReal) (ix2 (0 : Fin 1) j)
    = (W (Proc.devRef .tc main_arg6) : S256.Idx → EReal) (ix1 j) := by
  after_results
  exact shapeCast_a_1a_apply _ shapeCasts_S256_S1x256 (0 : Fin 1) j

/-- No operation of the stretch writes the node features. -/
theorem keep_x : StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

end Cert.KernelIdeal.Host0R
-- ==== Proof.KHost1.lean ====
/-
  The host operations between the two kernel calls, read at an index.

  The stretch adds the 10 per-block partial column sums (and the 10 partial sums of squares) from the zero word,
  divides each total by the row count, takes the mean of the squares less the square of the mean, and re-lays the
  five length-256 (and length-128) vectors as single rows.  Each result buffer is read here entry by entry against
  the specification's `meanOfParts` / `varOfParts`; a buffer no operation of the stretch writes keeps its contents.
-/
import proofs.«161687_j6279242186980_2_alg».proof.Proof.Gen.KernelIdeal.Launch
import proofs.«161687_j6279242186980_2_alg».proof.Proof.Spec
import Idealize.ShloMosaic.Lib.ValueLayout
import Idealize.ShloMosaic.Lib.IdealHost

open scoped BigOperators

namespace Cert.KernelIdeal.Host1
open Cert.KernelIdeal Cert.KernelIdeal.Gen Idealize.ShloMosaic Idealize.ShloMosaic.TcCoe Idealize.ShloMosaic.ValueIdx Idealize.SL.Sem

/-- A sum over the two leading axes of a [10, 1, 256] array: the indices that drop to column `j` are exactly
    `(t, 0, j)` for the 10 leading coordinates `t` (the middle axis has one coordinate), so the sum over them is
    the sum over `t`. -/
theorem hostReduceAdd_lead (h' : S10x1x256.ReducesTo [0, 1] S256) (x : S10x1x256.Idx → EReal) (init : EReal) (j : Fin 256) :
    Ideal.hostReduceAdd h' x init (ix1 j) = init + ∑ t : Fin 10, x (ix3 t (0 : Fin 1) j) := by
  unfold Ideal.hostReduceAdd
  refine congrArg (init + ·) ?_
  have hset : (Finset.univ.filter fun i : S10x1x256.Idx => h'.drop i = ix1 j)
      = Finset.univ.image (fun t : Fin 10 => (ix3 t (0 : Fin 1) j : S10x1x256.Idx)) := by
    ext i
    simp only [Finset.mem_filter, Finset.mem_univ, true_and, Finset.mem_image]
    constructor
    · intro hi
      refine ⟨i 0, ?_⟩
      have h2 : (i 2).val = j.val := congrArg (fun f : S256.Idx => (f 0).val) hi
      funext a
      match a with
      | ⟨0, _⟩ => rfl
      | ⟨1, _⟩ => exact Fin.ext (by have := (i 1).isLt; show 0 = (i 1).val; simp at this; omega)
      | ⟨2, _⟩ => exact Fin.ext h2.symm
    · rintro ⟨t, rfl⟩
      funext a
      match a with
      | ⟨0, _⟩ => rfl
  rw [hset, Finset.sum_image]
  intro a _ b _ hab
  exact congrFun hab 0

variable (W : Valuation τ sig (Elt Ideal))

/-- Block `t`'s partial column sums, as the stretch finds them. -/
def sP  : Fin 10 → Fin 256 → EReal := fun t j => (W (Proc.devRef .tc main_v24_1) : S10x1x256.Idx → EReal) (ix3 t (0 : Fin 1) j)
/-- Block `t`'s partial column sums of squares, as the stretch finds them. -/
def ssP : Fin 10 → Fin 256 → EReal := fun t j => (W (Proc.devRef .tc main_v24_2) : S10x1x256.Idx → EReal) (ix3 t (0 : Fin 1) j)

/-- The quotient the stretch forms from a [10, 1, 256] array of partial sums: the 10 partials of column `j` added
    from the zero word, over the row count. -/
theorem quot256 (x : S10x1x256.Idx → EReal) (j : Fin 256) :
    (Host.divf (F := Ideal)
        (Host.reduceAdd (F := Ideal) (φ := .f32) x (constant (F := Ideal) S_ .f32 0x00000000#32) reducesTo_S10x1x256_S256_d0_1 h_S_)
        (broadcastInDim S256 ![] bcast_S_S256 (constant (F := Ideal) S_ .f32 0x47435000#32)) : S256.Idx → EReal) (ix1 j)
      = Ideal.div (Cert.Spec.w0 + ∑ t : Fin 10, x (ix3 t (0 : Fin 1) j)) Cert.Spec.wN := by
  rw [hostDivf_apply, hostReduceAdd_apply, hostReduceAdd_lead, broadcastInDim_scalar_apply]
  rfl

/-- The mean row: entry `(0, j)` is the column mean from the partial sums. -/
theorem mean_entry (j : Fin 256) : (StableHlo.after (hostOps1 (F := Ideal)) W (Proc.devRef .tc main_v33) : S1x256.Idx → EReal) (ix2 (0 : Fin 1) j) = Cert.Spec.meanOfParts (sP W) j := by
  after_results
  refine (shapeCast_a_1a_apply _ shapeCasts_S256_S1x256 (0 : Fin 1) j).trans ?_
  exact quot256 _ j

/-- The variance row: entry `(0, j)` is the mean of the squares less the square of the mean. -/
theorem var_entry (j : Fin 256) : (StableHlo.after (hostOps1 (F := Ideal)) W (Proc.devRef .tc main_v34) : S1x256.Idx → EReal) (ix2 (0 : Fin 1) j) = Cert.Spec.varOfParts (sP W) (ssP W) j := by
  after_results
  refine (shapeCast_a_1a_apply _ shapeCasts_S256_S1x256 (0 : Fin 1) j).trans ?_
  rw [subf_apply, mulf_apply, quot256, quot256]
  rfl

/-- The scale, re-laid as one row. -/
theorem gamma_entry (j : Fin 256) : (StableHlo.after (hostOps1 (F := Ideal)) W (Proc.devRef .tc main_v35) : S1x256.Idx → EReal) (ix2 (0 : Fin 1) j) = (W (Proc.devRef .tc main_arg7) : S256.Idx → EReal) (ix1 j) := by
  after_results
  exact shapeCast_a_1a_apply _ shapeCasts_S256_S1x256 (0 : Fin 1) j

/-- The shift, re-laid as one row. -/
theorem beta_entry (j : Fin 256) : (StableHlo.after (hostOps1 (F := Ideal)) W (Proc.devRef .tc main_v36) : S1x256.Idx → EReal) (ix2 (0 : Fin 1) j) = (W (Proc.devRef .tc main_arg8) : S256.Idx → EReal) (ix1 j) := by
  after_results
  exact shapeCast_a_1a_apply _ shapeCasts_S256_S1x256 (0 : Fin 1) j

/-- The second layer's bias, re-laid as one row. -/
theorem b2_entry (q : Fin 128) : (StableHlo.after (hostOps1 (F := Ideal)) W (Proc.devRef .tc main_v37) : S1x128.Idx → EReal) (ix2 (0 : Fin 1) q) = (W (Proc.devRef .tc main_arg10) : S128.Idx → EReal) (ix1 q) := by
  after_results
  exact shapeCast_a_1a_apply _ shapeCasts_S128_S1x128 (0 : Fin 1) q

/-- No operation of the stretch writes the first layer's stored result. -/
theorem keep_hpre : StableHlo.after (hostOps1 (F := Ideal)) W (Proc.devRef .tc main_v24_0) = W (Proc.devRef .tc main_v24_0) :=
  StableHlo.after_of_forall_not_mem (b := Proc.devRef .tc main_v24_0) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

/-- No operation of the stretch writes the second layer's weights. -/
theorem keep_W2 : StableHlo.after (hostOps1 (F := Ideal)) W (Proc.devRef .tc main_arg9) = W (Proc.devRef .tc main_arg9) :=
  StableHlo.after_of_forall_not_mem (b := Proc.devRef .tc main_arg9) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

end Cert.KernelIdeal.Host1
-- ==== Proof.Finite.lean ====
/-
  Finiteness of the float arguments.

  The precondition is a conjunction of nine tests, one per float argument: every entry's absolute value is below
  plus infinity.  The absolute value of an extended real is its maximum with its negation, and the word 0x7F800000
  denotes plus infinity, so an entry passing the test is neither infinity: it is the image of a real number.  An
  "all" over an array is a reduction by "and" from 1 into a result of one index; that it came out 1 gives the test at
  every entry.
-/
import proofs.«161687_j6279242186980_2_alg».proof.Defs
import proofs.«161687_j6279242186980_2_alg».proof.Proof.Gen.Pre_finite_inputs
import proofs.«161687_j6279242186980_2_alg».proof.Proof.LibReal
import Idealize.ShloMosaic.Lib.ReduceAll
import Idealize.ShloMosaic.Lib.ValueIdx

noncomputable section

namespace Cert.KernelIdeal.Finite

open Cert.KernelIdeal Idealize.ShloMosaic Idealize.SL.Sem

/-- The word 0x7F800000 denotes plus infinity. -/
theorem ofBits_inf : Ideal.ofBits .f32 0x7F800000#32 = (⊤ : EReal) := by
  simp [Ideal.ofBits, Ideal.ieee]

/-- An extended real whose absolute value (its maximum with its negation) is below plus infinity is real. -/
theorem isReal_of_abs_lt (x : EReal)
    (h : Ideal.cmp .olt (max x (-x)) (Ideal.ofBits .f32 0x7F800000#32) = 1#1) : Cert.Lib.IsReal x := by
  rw [ofBits_inf] at h
  induction x using EReal.rec with
  | bot => simp [Ideal.cmp] at h
  | coe a => exact ⟨a, rfl⟩
  | top => simp [Ideal.cmp] at h

/-- The result shape of an "all" has one index. -/
instance : Subsingleton Cert.Pre_finite_inputs.S_.Idx := ⟨fun a b => funext fun d => d.elim0⟩

/-- One "all" test read back: when the reduction by "and" of the entrywise test came out 1, every entry is real. -/
theorem all_real {s : Shape} {axes : List (Fin s.rank)} (x : FVec Ideal s .f32)
    (bc : Cert.Pre_finite_inputs.S_.BroadcastsInDim s (![] : Fin 0 → Fin s.rank))
    (rd : s.ReducesTo axes Cert.Pre_finite_inputs.S_) (hu : 0 < Cert.Pre_finite_inputs.S_.numel)
    (e : Host.reduce IntOp.andi
          (cmpf .olt (Host.absf x)
            (broadcastInDim s ![] bc (constant (F := Ideal) Cert.Pre_finite_inputs.S_ .f32 0x7F800000#32)))
          (constantI Cert.Pre_finite_inputs.S_ 1 1#1) rd hu ValueIdx.ix0 = 1#1)
    (i : s.Idx) : Cert.Lib.IsReal (x i) :=
  isReal_of_abs_lt (x i) (Host.reduce_andi_all _ _ rd hu ValueIdx.ix0 e i)

/-- The precondition's predicate decoded, over any eleven arguments: every entry of each float argument is real. -/
theorem real_of_fn [Cert.Pre_finite_inputs.Facts]
    (x0 : FVec Ideal Cert.Pre_finite_inputs.S50000x128 .f32) (x1 : IVec Cert.Pre_finite_inputs.S2x800000 32)
    (x2 : FVec Ideal Cert.Pre_finite_inputs.S800000x96 .f32) (x3 : FVec Ideal Cert.Pre_finite_inputs.S64x64 .f32)
    (x4 : IVec Cert.Pre_finite_inputs.S50000 32) (x5 : FVec Ideal Cert.Pre_finite_inputs.S288x256 .f32)
    (x6 x7 x8 : FVec Ideal Cert.Pre_finite_inputs.S256 .f32) (x9 : FVec Ideal Cert.Pre_finite_inputs.S256x128 .f32)
    (x10 : FVec Ideal Cert.Pre_finite_inputs.S128 .f32)
    (h : Cert.Pre_finite_inputs.fn (F := Ideal) x0 x1 x2 x3 x4 x5 x6 x7 x8 x9 x10 = fun _ => 1#1) :
    (∀ i, Cert.Lib.IsReal (x0 i)) ∧ (∀ i, Cert.Lib.IsReal (x2 i)) ∧ (∀ i, Cert.Lib.IsReal (x3 i))
    ∧ (∀ i, Cert.Lib.IsReal (x5 i)) ∧ (∀ i, Cert.Lib.IsReal (x6 i)) ∧ (∀ i, Cert.Lib.IsReal (x7 i))
    ∧ (∀ i, Cert.Lib.IsReal (x8 i)) ∧ (∀ i, Cert.Lib.IsReal (x9 i)) ∧ (∀ i, Cert.Lib.IsReal (x10 i)) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨e0, e2⟩, e3⟩, e5⟩, e6⟩, e7⟩, e8⟩, e9⟩, e10⟩ := e
  exact ⟨all_real x0 _ _ _ e0, all_real x2 _ _ _ e2, all_real x3 _ _ _ e3, all_real x5 _ _ _ e5,
    all_real x6 _ _ _ e6, all_real x7 _ _ _ e7, all_real x8 _ _ _ e8, all_real x9 _ _ _ e9, all_real x10 _ _ _ e10⟩

/-- Under the precondition every entry of each of the nine float arguments is a real number. -/
theorem real_args (m : (ℓ : Loc nD τ sig) → Buf (Elt Ideal) ℓ)
    (h : Cert.Pre_KernelIdeal (hPre_finite_inputs := Cert.Pre_finite_inputs.Gen.facts) m) (c : Dev nD) :
    (∀ i, Cert.Lib.IsReal ((m ((c.tc : Thread nD τ).loc main_arg0) : S50000x128.Idx → EReal) i))
    ∧ (∀ i, Cert.Lib.IsReal ((m ((c.tc : Thread nD τ).loc main_arg2) : S800000x96.Idx → EReal) i))
    ∧ (∀ i, Cert.Lib.IsReal ((m ((c.tc : Thread nD τ).loc main_arg3) : S64x64.Idx → EReal) i))
    ∧ (∀ i, Cert.Lib.IsReal ((m ((c.tc : Thread nD τ).loc main_arg5) : S288x256.Idx → EReal) i))
    ∧ (∀ i, Cert.Lib.IsReal ((m ((c.tc : Thread nD τ).loc main_arg6) : S256.Idx → EReal) i))
    ∧ (∀ i, Cert.Lib.IsReal ((m ((c.tc : Thread nD τ).loc main_arg7) : S256.Idx → EReal) i))
    ∧ (∀ i, Cert.Lib.IsReal ((m ((c.tc : Thread nD τ).loc main_arg8) : S256.Idx → EReal) i))
    ∧ (∀ i, Cert.Lib.IsReal ((m ((c.tc : Thread nD τ).loc main_arg9) : S256x128.Idx → EReal) i))
    ∧ (∀ i, Cert.Lib.IsReal ((m ((c.tc : Thread nD τ).loc main_arg10) : S128.Idx → EReal) i)) :=
  @real_of_fn Cert.Pre_finite_inputs.Gen.facts _ _ _ _ _ _ _ _ _ _ _ (h c)

end Cert.KernelIdeal.Finite

end
-- ==== Proof.RefChain.lean ====
import proofs.«161687_j6279242186980_2_alg».proof.Proof.Gen.ReferenceIdeal.Read
import proofs.«161687_j6279242186980_2_alg».proof.Proof.Spec

/-
  The reference from its first layer's output on: the batch statistics over all 50000 rows, the normalisation with
  scale and shift, the positive part and the second linear layer, each read at an index.  The first layer's output
  enters as a function `h` of (row, column) that the stage holding it agrees with entry by entry; nothing here
  looks inside it.
-/

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S800000x96, .f32⟩ : BufTy).Contents (Elt Ideal)) (x3 : (⟨S64x64, .f32⟩ : BufTy).Contents (Elt Ideal))
  (x4 : (⟨S50000, .i32⟩ : BufTy).Contents (Elt Ideal)) (x5 : (⟨S288x256, .f32⟩ : BufTy).Contents (Elt Ideal))
  (x6 x7 x8 : (⟨S256, .f32⟩ : BufTy).Contents (Elt Ideal)) (x9 : (⟨S256x128, .f32⟩ : BufTy).Contents (Elt Ideal))
  (x10 : (⟨S128, .f32⟩ : BufTy).Contents (Elt Ideal))
  (h : Fin 50000 → Fin 256 → EReal)

/-- The column mean: the zero word plus the sum of the column over all rows, over the row-count word. -/
theorem mean_entry
    (hh : ∀ (p : Fin 50000) (j : Fin 256), val_main_v24 (F := Ideal) x0 x1 x2 x3 x4 x5 x6 (ix2 p j) = h p j)
    (j : Fin 256) :
    val_main_v27 (F := Ideal) x0 x1 x2 x3 x4 x5 x6 (ix1 j) = Cert.Spec.meanAll h j := by
  have e : ∀ k : Fin 50000, idx_main_v25 (ix1 j) k = ix2 k j := fun k =>
    funext fun a => Fin.ext (by match a with | ⟨0, _⟩ => rfl | ⟨1, _⟩ => rfl)
  rw [val_main_v27_apply, val_main_v25_apply, val_main_v26_apply, val_main_cst_4_apply, val_main_cst_5_apply]
  simp only [e, hh, Ideal.hostDivf_def, Ideal.ofBits_def]
  rfl

/-- The column variance: the zero word plus the sum over all rows of the squared deviation from the column mean,
    over the row-count word. -/
theorem var_entry
    (hh : ∀ (p : Fin 50000) (j : Fin 256), val_main_v24 (F := Ideal) x0 x1 x2 x3 x4 x5 x6 (ix2 p j) = h p j)
    (j : Fin 256) :
    val_main_v34 (F := Ideal) x0 x1 x2 x3 x4 x5 x6 (ix1 j) = Cert.Spec.varAll h j := by
  have e : ∀ k : Fin 50000, idx_main_v32 (ix1 j) k = ix2 k j := fun k =>
    funext fun a => Fin.ext (by match a with | ⟨0, _⟩ => rfl | ⟨1, _⟩ => rfl)
  have e2 : ∀ k : Fin 50000, idx_main_v28 (idx_main_v29 (ix2 k j)) = ix1 j := fun k =>
    funext fun a => Fin.ext (by match a with | ⟨0, _⟩ => rfl)
  rw [val_main_v34_apply, val_main_v32_apply, val_main_v33_apply, val_main_cst_6_apply, val_main_cst_7_apply]
  simp only [e, val_main_v31_apply, val_main_v30_apply, val_main_v29_apply, val_main_v28_apply, e2, hh,
    mean_entry x0 x1 x2 x3 x4 x5 x6 h hh, Ideal.hostDivf_def, Ideal.ofBits_def, Ideal.subf_def, Ideal.mulf_def]
  rfl

/-- The normalised, scaled and shifted entry. -/
theorem norm_entry
    (hh : ∀ (p : Fin 50000) (j : Fin 256), val_main_v24 (F := Ideal) x0 x1 x2 x3 x4 x5 x6 (ix2 p j) = h p j)
    (r : Fin 50000) (j : Fin 256) :
    val_main_v49 (F := Ideal) x0 x1 x2 x3 x4 x5 x6 x7 x8 (ix2 r j)
      = (h r j - Cert.Spec.meanAll h j) * Ideal.rsqrt (Cert.Spec.varAll h j + Cert.Spec.wEps) * x7 (ix1 j) + x8 (ix1 j) := by
  have e35 : idx_main_v35 (idx_main_v36 (ix2 r j)) = ix1 j :=
    funext fun a => Fin.ext (by match a with | ⟨0, _⟩ => rfl)
  have e41 : idx_main_v41 (idx_main_v42 (ix2 r j)) = ix1 j :=
    funext fun a => Fin.ext (by match a with | ⟨0, _⟩ => rfl)
  have e44 : idx_main_v44 (idx_main_v45 (ix2 r j)) = ix1 j :=
    funext fun a => Fin.ext (by match a with | ⟨0, _⟩ => rfl)
  have e47 : idx_main_v47 (idx_main_v48 (ix2 r j)) = ix1 j :=
    funext fun a => Fin.ext (by match a with | ⟨0, _⟩ => rfl)
  rw [val_main_v49_apply, val_main_v46_apply, val_main_v43_apply, val_main_v37_apply, val_main_v36_apply,
    val_main_v35_apply, val_main_v42_apply, val_main_v41_apply, val_main_v40_apply, val_main_v39_apply,
    val_main_v38_apply, val_main_cst_8_apply, val_main_v45_apply, val_main_v44_apply, val_main_v48_apply,
    val_main_v47_apply, e35, e41, e44, e47, hh, mean_entry x0 x1 x2 x3 x4 x5 x6 h hh,
    var_entry x0 x1 x2 x3 x4 x5 x6 h hh]
  simp only [Ideal.addf_def, Ideal.subf_def, Ideal.mulf_def, Ideal.hostUnary_rsqrt_def, Ideal.ofBits_def]

/-- The positive part of the normalised entry. -/
theorem relu_entry
    (hh : ∀ (p : Fin 50000) (j : Fin 256), val_main_v24 (F := Ideal) x0 x1 x2 x3 x4 x5 x6 (ix2 p j) = h p j)
    (r : Fin 50000) (j : Fin 256) :
    val_main_v50 (F := Ideal) x0 x1 x2 x3 x4 x5 x6 x7 x8 (ix2 r j)
      = max ((h r j - Cert.Spec.meanAll h j) * Ideal.rsqrt (Cert.Spec.varAll h j + Cert.Spec.wEps) * x7 (ix1 j) + x8 (ix1 j))
          Cert.Spec.w0 := by
  rw [val_main_v50_apply, val_main_call0_v0_apply, val_main_call0_cst_apply,
    norm_entry x0 x1 x2 x3 x4 x5 x6 x7 x8 h hh]
  simp only [Ideal.maximumf_def, Ideal.ofBits_def]

/-- The whole tail: the second linear layer on the positive parts, plus its bias. -/
theorem chain_entry
    (hh : ∀ (p : Fin 50000) (j : Fin 256), val_main_v24 (F := Ideal) x0 x1 x2 x3 x4 x5 x6 (ix2 p j) = h p j)
    (r : Fin 50000) (q : Fin 128) :
    val_main_v54 (F := Ideal) x0 x1 x2 x3 x4 x5 x6 x7 x8 x9 x10 (ix2 r q)
      = Cert.Spec.outOf h (Cert.Spec.meanAll h) (Cert.Spec.varAll h) (fun j => x7 (ix1 j)) (fun j => x8 (ix1 j))
          (fun k q => x9 (ix2 k q)) (fun q => x10 (ix1 q)) r q := by
  have el : ∀ k : Fin 256, lidx_main_v51 (ix2 r q) k = ix2 r k := fun k =>
    funext fun a => Fin.ext (by match a with | ⟨0, _⟩ => rfl | ⟨1, _⟩ => rfl)
  have er : ∀ k : Fin 256, ridx_main_v51 (ix2 r q) k = ix2 k q := fun k =>
    funext fun a => Fin.ext (by match a with | ⟨0, _⟩ => rfl | ⟨1, _⟩ => rfl)
  have e52 : idx_main_v52 (idx_main_v53 (ix2 r q)) = ix1 q :=
    funext fun a => Fin.ext (by match a with | ⟨0, _⟩ => rfl)
  rw [val_main_v54_apply, val_main_v51_apply, val_main_v53_apply, val_main_v52_apply, e52]
  simp only [el, er, relu_entry x0 x1 x2 x3 x4 x5 x6 x7 x8 h hh, Ideal.addf_def]
  rfl

end Cert.ReferenceIdeal.RefValue

end
-- ==== Proof.RefHost.lean ====
import proofs.«161687_j6279242186980_2_alg».proof.Proof.Gen.ReferenceIdeal.Read
import proofs.«161687_j6279242186980_2_alg».proof.Proof.Spec
import proofs.«161687_j6279242186980_2_alg».proof.Proof.LibRowScatter

/-
  The reference's first half, read at an index: the two segment sums (edge features, and ones for the edge counts),
  their quotient (the scatter-mean), the three feature groups joined along the columns, and the first linear layer
  as one product over the 288 joined columns plus its bias.  The gathered group is carried as the stage that holds
  it; only the fact that its entries are entries of the table is used.
-/

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S800000x96, .f32⟩ : BufTy).Contents (Elt Ideal)) (x3 : (⟨S64x64, .f32⟩ : BufTy).Contents (Elt Ideal))
  (x4 : (⟨S50000, .i32⟩ : BufTy).Contents (Elt Ideal)) (x5 : (⟨S288x256, .f32⟩ : BufTy).Contents (Elt Ideal))
  (x6 : (⟨S256, .f32⟩ : BufTy).Contents (Elt Ideal))

/-- The edges' target nodes: row 1 of the edge index, each word read signed. -/
def col : Fin 800000 → ℤ := fun e => (x1 (ix2 (1 : Fin 2) e)).toInt

/-- The scatter indices: entry (e, 0) of the column of index words is entry (1, e) of the edge index. -/
theorem idxcol_entry (e : Fin 800000) : val_main_v3 (F := Ideal) x1 (ix2 e (0 : Fin 1)) = x1 (ix2 (1 : Fin 2) e) := by
  have e0 : idx_main_v0 (idx_main_v1 (idx_main_v3 (ix2 e (0 : Fin 1)))) = ix2 (1 : Fin 2) e :=
    funext fun a => Fin.ext (by
      match a with
      | ⟨0, _⟩ => rfl
      | ⟨1, _⟩ => exact Nat.mod_eq_of_lt e.isLt)
  rw [val_main_v3_apply, val_main_v1_apply, val_main_v0_apply, e0]

/-- The second scatter reads the same column of index words. -/
theorem idxcol_entry' (e : Fin 800000) : val_main_v7 (F := Ideal) x1 (ix2 e (0 : Fin 1)) = x1 (ix2 (1 : Fin 2) e) := by
  have e0 : idx_main_v0 (idx_main_v1 (idx_main_v7 (ix2 e (0 : Fin 1)))) = ix2 (1 : Fin 2) e :=
    funext fun a => Fin.ext (by
      match a with
      | ⟨0, _⟩ => rfl
      | ⟨1, _⟩ => exact Nat.mod_eq_of_lt e.isLt)
  rw [val_main_v7_apply, val_main_v1_apply, val_main_v0_apply, e0]

/-- A row scatter-add of 96-column rows into 50000 rows from 800000 edges, read at (n, k). -/
theorem scatter_feat (x : FVec Ideal S50000x96 .f32) (idx : IVec S800000x1 32)
    (upd : FVec Ideal S800000x96 .f32) (n : Fin 50000) (k : Fin 96) :
    Host.scatterAdd (F := Ideal) (φ := .f32) scatter_S50000x96_S800000x1_S800000x96_1_0_0_1 x idx upd (ix2 n k)
      = x (ix2 n k) + ∑ e : Fin 800000, if (idx (ix2 e (0 : Fin 1))).toInt = (n.val : ℤ) then upd (ix2 e k) else 0 := by
  have hd : scatter_S50000x96_S800000x1_S800000x96_1_0_0_1
      = RowScatter.rowScatterDims 50000 800000 96 scatter_S50000x96_S800000x1_S800000x96_1_0_0_1_wf := rfl
  unfold Host.scatterAdd
  rw [Ideal.hostScatterAdd_def, hd]
  exact RowScatter.rowScatterAdd_apply scatter_S50000x96_S800000x1_S800000x96_1_0_0_1_wf x idx upd n k

/-- A row scatter-add of one-column rows into 50000 rows from 800000 edges, read at (n, 0). -/
theorem scatter_count (x : FVec Ideal S50000x1 .f32) (idx : IVec S800000x1 32)
    (upd : FVec Ideal S800000x1 .f32) (n : Fin 50000) :
    Host.scatterAdd (F := Ideal) (φ := .f32) scatter_S50000x1_S800000x1_S800000x1_1_0_0_1 x idx upd (ix2 n (0 : Fin 1))
      = x (ix2 n (0 : Fin 1)) + ∑ e : Fin 800000, if (idx (ix2 e (0 : Fin 1))).toInt = (n.val : ℤ) then upd (ix2 e (0 : Fin 1)) else 0 := by
  have hd : scatter_S50000x1_S800000x1_S800000x1_1_0_0_1
      = RowScatter.rowScatterDims 50000 800000 1 scatter_S50000x1_S800000x1_S800000x1_1_0_0_1_wf := rfl
  unfold Host.scatterAdd
  rw [Ideal.hostScatterAdd_def, hd]
  exact RowScatter.rowScatterAdd_apply scatter_S50000x1_S800000x1_S800000x1_1_0_0_1_wf x idx upd n (0 : Fin 1)

/-- The first scatter-add: node `n`'s segment sum of edge-feature column `k`, from the zero word. -/
theorem featSum_entry (n : Fin 50000) (k : Fin 96) :
    val_main_v4 (F := Ideal) x1 x2 (ix2 n k) = Cert.Spec.segSum (col x1) (fun e => x2 (ix2 e k)) n := by
  unfold val_main_v4
  rw [scatter_feat, val_main_v2_apply, val_main_cst_apply]
  simp only [idxcol_entry, Ideal.ofBits_def]
  unfold Cert.Spec.segSum col
  with_reducible rfl

/-- The second scatter-add: node `n`'s segment sum of ones (its edge count), from the zero word. -/
theorem countSum_entry (n : Fin 50000) :
    val_main_v8 (F := Ideal) x1 (ix2 n (0 : Fin 1)) = Cert.Spec.segSum (col x1) (fun _ => Cert.Spec.w1) n := by
  unfold val_main_v8
  rw [scatter_count, val_main_v6_apply, val_main_cst_1_apply]
  simp only [idxcol_entry', val_main_v5_apply, val_main_cst_0_apply, Ideal.ofBits_def]
  unfold Cert.Spec.segSum col
  with_reducible rfl

/-- The scatter-mean: the feature segment sum over the edge count, the count taken as at least one. -/
theorem aggr_entry (n : Fin 50000) (k : Fin 96) :
    val_main_v12 (F := Ideal) x1 x2 (ix2 n k) = Cert.Spec.eAggr (col x1) (fun e k => x2 (ix2 e k)) n k := by
  have e11 : idx_main_v11 (ix2 n k) = ix2 n (0 : Fin 1) :=
    funext fun a => Fin.ext (by match a with | ⟨0, _⟩ => rfl | ⟨1, _⟩ => rfl)
  rw [val_main_v12_apply, val_main_v11_apply, val_main_v10_apply, val_main_v9_apply, val_main_cst_2_apply, e11,
    featSum_entry, countSum_entry]
  simp only [Ideal.hostDivf_def, Ideal.maximumf_def, Ideal.ofBits_def]
  unfold Cert.Spec.eAggr
  with_reducible rfl

/-- Three arrays of 128, 96 and 64 columns joined along the columns, read at (r, k): the array whose span of columns
    holds `k`, at `k` less the columns before it. -/
theorem cat3_entry (a : (⟨S50000x128, .f32⟩ : BufTy).Contents (Elt Ideal)) (b : (⟨S50000x96, .f32⟩ : BufTy).Contents (Elt Ideal))
    (c : (⟨S50000x64, .f32⟩ : BufTy).Contents (Elt Ideal)) (r : Fin 50000) (k : Fin 288) :
    concatenate S50000x288 1 [⟨S50000x128, a⟩, ⟨S50000x96, b⟩, ⟨S50000x64, c⟩]
        concatenates_S50000x128_S50000x96_S50000x64_S50000x288_d1 (ix2 r k)
      = Cert.Spec.cat (fun p k => a (ix2 p k)) (fun p k => b (ix2 p k)) (fun p k => c (ix2 p k)) r k := by
  unfold Cert.Spec.cat
  by_cases h1 : k.val < 128
  · rw [dif_pos h1]
    refine concatenate_apply_piece (1 : Fin 2) [⟨S50000x128, a⟩, ⟨S50000x96, b⟩, ⟨S50000x64, c⟩] _ (ix2 r k) 0 (Nat.succ_pos 2) S50000x128 a rfl rfl 0 rfl
      (ix2 r ⟨k.val, h1⟩) (fun b hb => ?_) ?_
    · match b with
      | ⟨0, _⟩ => rfl
      | ⟨1, _⟩ => exact absurd (Fin.ext rfl) hb
    · show 0 + k.val = k.val
      omega
  · rw [dif_neg h1]
    by_cases h2 : k.val < 224
    · rw [dif_pos h2]
      refine concatenate_apply_piece (1 : Fin 2) [⟨S50000x128, a⟩, ⟨S50000x96, b⟩, ⟨S50000x64, c⟩] _ (ix2 r k) 1 (Nat.succ_lt_succ (Nat.succ_pos 1)) S50000x96 b rfl rfl 128 rfl
        (ix2 r ⟨k.val - 128, by omega⟩) (fun b hb => ?_) ?_
      · match b with
        | ⟨0, _⟩ => rfl
        | ⟨1, _⟩ => exact absurd (Fin.ext rfl) hb
      · show 128 + (k.val - 128) = k.val
        omega
    · rw [dif_neg h2]
      refine concatenate_apply_piece (1 : Fin 2) [⟨S50000x128, a⟩, ⟨S50000x96, b⟩, ⟨S50000x64, c⟩] _ (ix2 r k) 2 (Nat.lt_succ_self 2) S50000x64 c rfl rfl 224 rfl
        (ix2 r ⟨k.val - 224, by have := k.isLt; omega⟩) (fun b hb => ?_) ?_
      · match b with
        | ⟨0, _⟩ => rfl
        | ⟨1, _⟩ => exact absurd (Fin.ext rfl) hb
      · show 224 + (k.val - 224) = k.val
        omega

/-- The joined features: the node features, the scatter-mean, the gathered group. -/
theorem joined_entry (r : Fin 50000) (k : Fin 288) :
    val_main_v20 (F := Ideal) x0 x1 x2 x3 x4 (ix2 r k)
      = Cert.Spec.cat (fun p k => x0 (ix2 p k)) (Cert.Spec.eAggr (col x1) (fun e k => x2 (ix2 e k)))
          (fun p k => val_main_v19 (F := Ideal) x3 x4 (ix2 p k)) r k := by
  unfold val_main_v20
  rw [cat3_entry]
  have e : (fun (p : Fin 50000) (k : Fin 96) => val_main_v12 (F := Ideal) x1 x2 (ix2 p k))
      = Cert.Spec.eAggr (col x1) (fun e k => x2 (ix2 e k)) := funext fun p => funext fun k => aggr_entry x1 x2 p k
  rw [e]

/-- The first layer's output: one product over the 288 joined columns, plus the bias. -/
theorem lin_entry (r : Fin 50000) (j : Fin 256) :
    val_main_v24 (F := Ideal) x0 x1 x2 x3 x4 x5 x6 (ix2 r j)
      = Cert.Spec.lin1 (fun p k => x0 (ix2 p k)) (Cert.Spec.eAggr (col x1) (fun e k => x2 (ix2 e k)))
          (fun p k => val_main_v19 (F := Ideal) x3 x4 (ix2 p k)) (fun k j => x5 (ix2 k j)) (fun j => x6 (ix1 j)) r j := by
  have el : ∀ k : Fin 288, lidx_main_v21 (ix2 r j) k = ix2 r k := fun k =>
    funext fun a => Fin.ext (by match a with | ⟨0, _⟩ => rfl | ⟨1, _⟩ => rfl)
  have er : ∀ k : Fin 288, ridx_main_v21 (ix2 r j) k = ix2 k j := fun k =>
    funext fun a => Fin.ext (by match a with | ⟨0, _⟩ => rfl | ⟨1, _⟩ => rfl)
  have e22 : idx_main_v22 (idx_main_v23 (ix2 r j)) = ix1 j :=
    funext fun a => Fin.ext (by match a with | ⟨0, _⟩ => rfl)
  rw [val_main_v24_apply, val_main_v21_apply, val_main_v23_apply, val_main_v22_apply, e22]
  simp only [el, er, joined_entry, Ideal.addf_def]
  unfold Cert.Spec.lin1
  with_reducible rfl

end Cert.ReferenceIdeal.RefValue

end
-- ==== Proof.RefValue.lean ====
import proofs.«161687_j6279242186980_2_alg».proof.Proof.RefChain
import proofs.«161687_j6279242186980_2_alg».proof.Proof.RefHost
import proofs.«161687_j6279242186980_2_alg».proof.Proof.LibReal

/-
  The reference's result at an entry is the node model of the specification: the first layer as one product over
  the joined columns (node features, scatter-mean of the edge features, gathered group), the statistics over all
  rows, normalisation, positive part, second layer.  The gathered group's entries are entries of the table it is
  gathered from, so they are real when the table's are.
-/

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S800000x96, .f32⟩ : BufTy).Contents (Elt Ideal)) (x3 : (⟨S64x64, .f32⟩ : BufTy).Contents (Elt Ideal))
  (x4 : (⟨S50000, .i32⟩ : BufTy).Contents (Elt Ideal)) (x5 : (⟨S288x256, .f32⟩ : BufTy).Contents (Elt Ideal))
  (x6 x7 x8 : (⟨S256, .f32⟩ : BufTy).Contents (Elt Ideal)) (x9 : (⟨S256x128, .f32⟩ : BufTy).Contents (Elt Ideal))
  (x10 : (⟨S128, .f32⟩ : BufTy).Contents (Elt Ideal))

/-- The first layer's output, as the reference computes it: one product over the joined 288 columns. -/
def Href : Fin 50000 → Fin 256 → EReal :=
  Cert.Spec.lin1 (fun p k => x0 (ix2 p k)) (Cert.Spec.eAggr (col x1) (fun e k => x2 (ix2 e k)))
    (fun p k => val_main_v19 (F := Ideal) x3 x4 (ix2 p k)) (fun k j => x5 (ix2 k j)) (fun j => x6 (ix1 j))

/-- The reference's result at (r, q) is the specification's output built on the first layer's output. -/
theorem ref_entry (r : Fin 50000) (q : Fin 128) :
    val_main_v54 (F := Ideal) x0 x1 x2 x3 x4 x5 x6 x7 x8 x9 x10 (ix2 r q)
      = Cert.Spec.outOf (Href x0 x1 x2 x3 x4 x5 x6) (Cert.Spec.meanAll (Href x0 x1 x2 x3 x4 x5 x6))
          (Cert.Spec.varAll (Href x0 x1 x2 x3 x4 x5 x6))
          (fun j => x7 (ix1 j)) (fun j => x8 (ix1 j)) (fun k q => x9 (ix2 k q)) (fun q => x10 (ix1 q)) r q :=
  chain_entry x0 x1 x2 x3 x4 x5 x6 x7 x8 x9 x10 (Href x0 x1 x2 x3 x4 x5 x6)
    (fun p j => lin_entry x0 x1 x2 x3 x4 x5 x6 p j) r q

/-- Every entry of the gathered group is an entry of the table, so it is real when the table's entries are. -/
theorem gather_real (h3 : ∀ i, Cert.Lib.IsReal (x3 i)) (i : S50000x64.Idx) :
    Cert.Lib.IsReal (val_main_v19 (F := Ideal) x3 x4 i) := by
  unfold val_main_v19 Host.gather
  exact h3 _

end Cert.ReferenceIdeal.RefValue

end
-- ==== Proof.Bridge.lean ====
/-
  The two idealized programs compute one array.

  The kernel program is a fold through four segments.  Its result is the second tiled region's output array; each of
  that region's operands is what the second host stretch leaves, computed from the first region's three output
  arrays; each of the first region's operands is what the first host stretch leaves, computed from the launch
  memory.  Read entry by entry, and unwound down to the launch memory, the result at (r, q) is

      Σ_j max(((h r j − mean j) · rsqrt(var j + ε)) · γ j + β j, 0) · W2 j q + b2 q,

  with h the first layer on the node features, the scatter-mean of the edge features and the gathered graph features,
  written as the sum of three products, and the statistics taken from ten blocks' partial sums of h and h².  The
  reference's last stage is the same expression with h written as one product over the joined columns and the
  statistics taken over all rows.  The laws joining the two (SpecLaws) need the entries of h real, which the
  precondition — every float argument finite — gives.
-/
import proofs.«161687_j6279242186980_2_alg».proof.Defs
import proofs.«161687_j6279242186980_2_alg».proof.Proof.Gen.KernelIdeal.Frame
import proofs.«161687_j6279242186980_2_alg».proof.Proof.Gen.Pre_finite_inputs
import proofs.«161687_j6279242186980_2_alg».proof.Proof.Gen.ReferenceIdeal.Read
import proofs.«161687_j6279242186980_2_alg».proof.Proof.Spec
import proofs.«161687_j6279242186980_2_alg».proof.Proof.SpecLaws
import proofs.«161687_j6279242186980_2_alg».proof.Proof.LibReal
import proofs.«161687_j6279242186980_2_alg».proof.Proof.KRegion0
import proofs.«161687_j6279242186980_2_alg».proof.Proof.KRegion1
import proofs.«161687_j6279242186980_2_alg».proof.Proof.KHost0
import proofs.«161687_j6279242186980_2_alg».proof.Proof.KHost0Rest
import proofs.«161687_j6279242186980_2_alg».proof.Proof.KHost1
import proofs.«161687_j6279242186980_2_alg».proof.Proof.Finite
import proofs.«161687_j6279242186980_2_alg».proof.Proof.RefValue
import Idealize.ShloMosaic.Lib.ValueIdx

set_option maxRecDepth 16384

noncomputable section

namespace Cert.Proof.Bridge

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The launch memory's argument arrays as functions of coordinates -/

/-- Node features. -/
def X : Fin 50000 → Fin 128 → EReal := fun p k => (m ((c.tc : Thread nD τ).loc main_arg0) : S50000x128.Idx → EReal) (ix2 p k)
/-- Each edge's target node: row 1 of the edge index, the word read signed. -/
def Col : Fin 800000 → ℤ := fun e => ((m ((c.tc : Thread nD τ).loc main_arg1) : S2x800000.Idx → BitVec 32) (ix2 (1 : Fin 2) e)).toInt
/-- Edge features. -/
def EA : Fin 800000 → Fin 96 → EReal := fun e k => (m ((c.tc : Thread nD τ).loc main_arg2) : S800000x96.Idx → EReal) (ix2 e k)
/-- Each node's graph feature row: the gather of the graph features at the node's graph number. -/
def G : Fin 50000 → Fin 64 → EReal := fun p k =>
  Cert.ReferenceIdeal.Read.val_main_v19 (F := Ideal) (m ((c.tc : Thread nD τ).loc main_arg3)) (m ((c.tc : Thread nD τ).loc main_arg4)) (ix2 p k)
/-- First-layer weights and bias, scale, shift, second-layer weights and bias. -/
def W1 : Fin 288 → Fin 256 → EReal := fun k j => (m ((c.tc : Thread nD τ).loc main_arg5) : S288x256.Idx → EReal) (ix2 k j)
def B1 : Fin 256 → EReal := fun j => (m ((c.tc : Thread nD τ).loc main_arg6) : S256.Idx → EReal) (ix1 j)
def Gam : Fin 256 → EReal := fun j => (m ((c.tc : Thread nD τ).loc main_arg7) : S256.Idx → EReal) (ix1 j)
def Bet : Fin 256 → EReal := fun j => (m ((c.tc : Thread nD τ).loc main_arg8) : S256.Idx → EReal) (ix1 j)
def W2m : Fin 256 → Fin 128 → EReal := fun k q => (m ((c.tc : Thread nD τ).loc main_arg9) : S256x128.Idx → EReal) (ix2 k q)
def B2 : Fin 128 → EReal := fun q => (m ((c.tc : Thread nD τ).loc main_arg10) : S128.Idx → EReal) (ix1 q)

/-- The first layer's output as the kernel program groups it: three products on the weight matrix's row groups. -/
def HK : Fin 50000 → Fin 256 → EReal :=
  Cert.Spec.lin3 (X m c) (Cert.Spec.eAggr (Col m c) (EA m c)) (G m c) (fun k j => W1 m c ⟨k.val, by omega⟩ j)
    (fun k j => W1 m c ⟨128 + k.val, by omega⟩ j) (fun k j => W1 m c ⟨224 + k.val, by omega⟩ j) (B1 m c)

/-! ## The first region's operands are the first host stretch's results on the launch memory -/

theorem V1_x : Cert.KernelIdeal.Region0.aX (V1 m ρ) c = X m c := by
  funext p k
  show (StableHlo.after (hostOps0 (F := Ideal)) (W0 m ρ c) (Proc.devRef .tc main_arg0) : S50000x128.Idx → EReal) (ix2 p k) = _
  rw [Cert.KernelIdeal.Host0R.keep_x]; rfl

theorem V1_e : Cert.KernelIdeal.Region0.aE (V1 m ρ) c = Cert.Spec.eAggr (Col m c) (EA m c) := by
  funext n k
  show (StableHlo.after (hostOps0 (F := Ideal)) (W0 m ρ c) (Proc.devRef .tc main_v12) : S50000x96.Idx → EReal) (ix2 n k) = _
  rw [Cert.KernelIdeal.Host0.e_entry]; rfl

theorem V1_g : Cert.KernelIdeal.Region0.aG (V1 m ρ) c = G m c := by
  funext p k
  show (StableHlo.after (hostOps0 (F := Ideal)) (W0 m ρ c) (Proc.devRef .tc main_v19) : S50000x64.Idx → EReal) (ix2 p k) = _
  rw [Cert.KernelIdeal.Host0R.g_eq]; rfl

theorem V1_wx : Cert.KernelIdeal.Region0.aWx (V1 m ρ) c = fun k j => W1 m c ⟨k.val, by omega⟩ j := by
  funext k j
  show (StableHlo.after (hostOps0 (F := Ideal)) (W0 m ρ c) (Proc.devRef .tc main_v20) : S128x256.Idx → EReal) (ix2 k j) = _
  rw [Cert.KernelIdeal.Host0R.wx_entry]; rfl

theorem V1_we : Cert.KernelIdeal.Region0.aWe (V1 m ρ) c = fun k j => W1 m c ⟨128 + k.val, by omega⟩ j := by
  funext k j
  show (StableHlo.after (hostOps0 (F := Ideal)) (W0 m ρ c) (Proc.devRef .tc main_v21) : S96x256.Idx → EReal) (ix2 k j) = _
  rw [Cert.KernelIdeal.Host0R.we_entry]; rfl

theorem V1_wg : Cert.KernelIdeal.Region0.aWg (V1 m ρ) c = fun k j => W1 m c ⟨224 + k.val, by omega⟩ j := by
  funext k j
  show (StableHlo.after (hostOps0 (F := Ideal)) (W0 m ρ c) (Proc.devRef .tc main_v22) : S64x256.Idx → EReal) (ix2 k j) = _
  rw [Cert.KernelIdeal.Host0R.wg_entry]; rfl

theorem V1_b1 : Cert.KernelIdeal.Region0.aB1 (V1 m ρ) c = B1 m c := by
  funext j
  show (StableHlo.after (hostOps0 (F := Ideal)) (W0 m ρ c) (Proc.devRef .tc main_v23) : S1x256.Idx → EReal) (ix2 (0 : Fin 1) j) = _
  rw [Cert.KernelIdeal.Host0R.b1_entry]; rfl

/-- The first layer's output on the first region's operands is `HK` of the launch memory. -/
theorem H_eq : Cert.KernelIdeal.Region0.H (V1 m ρ) c = HK m c := by
  unfold Cert.KernelIdeal.Region0.H HK
  rw [V1_x, V1_e, V1_g, V1_wx, V1_we, V1_wg, V1_b1]

/-! ## An argument no host operation writes and the first region does not stage keeps its launch contents -/

local macro "not_written" : tactic => `(tactic| (
  refine List.forall_iff_forall_mem.mp ?_
  simp only [hostOps0, hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem W2_arg7 : W2 m ρ c (Proc.devRef .tc main_arg7) = m ((c : Thread nD τ).loc main_arg7) :=
  (W2_of_ne m ρ c main_arg7 (by decide)).trans
    ((StableHlo.after_of_forall_not_mem (b := Proc.devRef .tc main_arg7) _ _ (by not_written)).trans rfl)
theorem W2_arg8 : W2 m ρ c (Proc.devRef .tc main_arg8) = m ((c : Thread nD τ).loc main_arg8) :=
  (W2_of_ne m ρ c main_arg8 (by decide)).trans
    ((StableHlo.after_of_forall_not_mem (b := Proc.devRef .tc main_arg8) _ _ (by not_written)).trans rfl)
theorem W2_arg9 : W2 m ρ c (Proc.devRef .tc main_arg9) = m ((c : Thread nD τ).loc main_arg9) :=
  (W2_of_ne m ρ c main_arg9 (by decide)).trans
    ((StableHlo.after_of_forall_not_mem (b := Proc.devRef .tc main_arg9) _ _ (by not_written)).trans rfl)
theorem W2_arg10 : W2 m ρ c (Proc.devRef .tc main_arg10) = m ((c : Thread nD τ).loc main_arg10) :=
  (W2_of_ne m ρ c main_arg10 (by decide)).trans
    ((StableHlo.after_of_forall_not_mem (b := Proc.devRef .tc main_arg10) _ _ (by not_written)).trans rfl)

/-! ## The second region's operands -/

theorem V3_h : Cert.KernelIdeal.Region1.aH (V3 m ρ) c = HK m c := by
  funext p j
  show (StableHlo.after (hostOps1 (F := Ideal)) (W2 m ρ c) (Proc.devRef .tc main_v24_0) : S50000x256.Idx → EReal) (ix2 p j) = _
  rw [Cert.KernelIdeal.Host1.keep_hpre]
  show (W2 m ρ c (Proc.devRef .tc (Pipeline.arrRef spec0 7)) : S50000x256.Idx → EReal) (ix2 p j) = _
  rw [W2_arr m ρ c 7, Cert.KernelIdeal.Region0.hpre_entry (V1 m ρ) c p j, H_eq]

theorem sP_eq : Cert.KernelIdeal.Host1.sP (W2 m ρ c) = Cert.Spec.partSum (HK m c) := by
  funext t j
  show (W2 m ρ c (Proc.devRef .tc (Pipeline.arrRef spec0 8)) : S10x1x256.Idx → EReal) (ix3 t (0 : Fin 1) j) = _
  rw [W2_arr m ρ c 8, Cert.KernelIdeal.Region0.sum_entry (V1 m ρ) c t j, H_eq]

theorem ssP_eq : Cert.KernelIdeal.Host1.ssP (W2 m ρ c) = Cert.Spec.partSumSq (HK m c) := by
  funext t j
  show (W2 m ρ c (Proc.devRef .tc (Pipeline.arrRef spec0 9)) : S10x1x256.Idx → EReal) (ix3 t (0 : Fin 1) j) = _
  rw [W2_arr m ρ c 9, Cert.KernelIdeal.Region0.sumsq_entry (V1 m ρ) c t j, H_eq]

theorem V3_mean : Cert.KernelIdeal.Region1.aMean (V3 m ρ) c = Cert.Spec.meanOfParts (Cert.Spec.partSum (HK m c)) := by
  funext j
  show (StableHlo.after (hostOps1 (F := Ideal)) (W2 m ρ c) (Proc.devRef .tc main_v33) : S1x256.Idx → EReal) (ix2 (0 : Fin 1) j) = _
  rw [Cert.KernelIdeal.Host1.mean_entry, sP_eq]

theorem V3_var : Cert.KernelIdeal.Region1.aVar (V3 m ρ) c
    = Cert.Spec.varOfParts (Cert.Spec.partSum (HK m c)) (Cert.Spec.partSumSq (HK m c)) := by
  funext j
  show (StableHlo.after (hostOps1 (F := Ideal)) (W2 m ρ c) (Proc.devRef .tc main_v34) : S1x256.Idx → EReal) (ix2 (0 : Fin 1) j) = _
  rw [Cert.KernelIdeal.Host1.var_entry, sP_eq, ssP_eq]

theorem V3_gam : Cert.KernelIdeal.Region1.aGam (V3 m ρ) c = Gam m c := by
  funext j
  show (StableHlo.after (hostOps1 (F := Ideal)) (W2 m ρ c) (Proc.devRef .tc main_v35) : S1x256.Idx → EReal) (ix2 (0 : Fin 1) j) = _
  rw [Cert.KernelIdeal.Host1.gamma_entry, W2_arg7]; rfl

theorem V3_bet : Cert.KernelIdeal.Region1.aBet (V3 m ρ) c = Bet m c := by
  funext j
  show (StableHlo.after (hostOps1 (F := Ideal)) (W2 m ρ c) (Proc.devRef .tc main_v36) : S1x256.Idx → EReal) (ix2 (0 : Fin 1) j) = _
  rw [Cert.KernelIdeal.Host1.beta_entry, W2_arg8]; rfl

theorem V3_w2 : Cert.KernelIdeal.Region1.aW2 (V3 m ρ) c = W2m m c := by
  funext k q
  show (StableHlo.after (hostOps1 (F := Ideal)) (W2 m ρ c) (Proc.devRef .tc main_arg9) : S256x128.Idx → EReal) (ix2 k q) = _
  rw [Cert.KernelIdeal.Host1.keep_W2, W2_arg9]; rfl

theorem V3_b2 : Cert.KernelIdeal.Region1.aB2 (V3 m ρ) c = B2 m c := by
  funext q
  show (StableHlo.after (hostOps1 (F := Ideal)) (W2 m ρ c) (Proc.devRef .tc main_v37) : S1x128.Idx → EReal) (ix2 (0 : Fin 1) q) = _
  rw [Cert.KernelIdeal.Host1.b2_entry, W2_arg10]; rfl

/-- THE KERNEL PROGRAM'S RESULT, entry by entry, as a function of the launch memory: the second layer applied to the
    normalised, rectified first-layer output, the statistics taken from the block partial sums. -/
theorem kernel_entry (r : Fin 50000) (q : Fin 128) :
    (W4 m ρ c (Proc.devRef .tc main_v38) : S50000x128.Idx → EReal) (ix2 r q)
      = Cert.Spec.outOf (HK m c) (Cert.Spec.meanOfParts (Cert.Spec.partSum (HK m c)))
          (Cert.Spec.varOfParts (Cert.Spec.partSum (HK m c)) (Cert.Spec.partSumSq (HK m c)))
          (Gam m c) (Bet m c) (W2m m c) (B2 m c) r q := by
  show (W4 m ρ c (Proc.devRef .tc (Pipeline.arrRef spec1 7)) : S50000x128.Idx → EReal) (ix2 r q) = _
  rw [W4_arr m ρ c 7, Cert.KernelIdeal.Region1.out_entry (V3 m ρ) c r q, V3_h, V3_mean, V3_var, V3_gam, V3_bet, V3_w2, V3_b2]

end Cert.Proof.Bridge

namespace Cert.Proof.Bridge

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- THE TWO PROGRAMS COMPUTE ONE ARRAY.  Under the precondition (every float argument finite) the kernel program's
    result is the reference's last stage on the same arguments: entry by entry both are the second layer on the
    normalised, rectified first-layer output; the first layer as three products is the first layer as one, and — the
    first-layer outputs being real — the variance from block partial sums is the variance over all rows. -/
theorem value_eq (hpre : Cert.Pre_KernelIdeal (hPre_finite_inputs := Cert.Pre_finite_inputs.Gen.facts) m) :
    (W4 m ρ c (Proc.devRef .tc main_v38) : S50000x128.Idx → EReal)
      = Cert.ReferenceIdeal.Read.val_main_v54 (F := Ideal)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  funext i
  obtain ⟨r, q, rfl⟩ : ∃ (r : Fin 50000) (q : Fin 128), i = ix2 r q := ⟨i 0, i 1, eq_ix2 i⟩
  obtain ⟨h0, h2, h3, h5, h6, -, -, -, -⟩ := Cert.KernelIdeal.Finite.real_args m hpre c
  rw [kernel_entry, Cert.ReferenceIdeal.RefValue.ref_entry]
  exact Cert.Spec.out_bridge (X m c) (Cert.Spec.eAggr (Col m c) (EA m c)) (G m c) (W1 m c) (B1 m c) (Gam m c) (Bet m c)
    (W2m m c) (B2 m c) (fun p k => h0 _) (fun n k => Cert.Spec.isReal_eAggr _ _ (fun e k => h2 _) n k)
    (fun p k => Cert.ReferenceIdeal.RefValue.gather_real _ _ h3 _) (fun k j => h5 _) (fun j => h6 _) r q

end Cert.Proof.Bridge

end
-- ==== Proof.lean ====
/-
  The certificate: the node model's tiled kernel program against its plain reference.

  Five claims.  The printed kernel program, its idealization and the idealized reference each run to the end
  without a fault and leave their arguments as launched (the kernel programs' frames are the generated launch
  proofs over their two tiled regions; the reference's is its run with the result dropped).  The idealization
  rewrote no operation, so it preserves the program trivially.  And from memories that agree on the arguments the
  two idealized programs end with equal results: the kernel program's run names its result array as a fold through
  its segments from the launch memory (KRun), and that array is, entry by entry, the reference's last stage on the
  same arguments (Bridge) — the scatter-mean, the first layer, the batch statistics, normalisation, the positive
  part and the second layer — once the first layer's three products are read as one and the variance from block
  partial sums as the variance over all rows, which holds because every float argument is finite.
-/
import proofs.«161687_j6279242186980_2_alg».proof.Defs
import proofs.«161687_j6279242186980_2_alg».proof.Proof.Gen.Kernel
import proofs.«161687_j6279242186980_2_alg».proof.Proof.Gen.Kernel.Skeleton
import proofs.«161687_j6279242186980_2_alg».proof.Proof.Gen.Kernel.Launch
import proofs.«161687_j6279242186980_2_alg».proof.Proof.Gen.Kernel.Points
import proofs.«161687_j6279242186980_2_alg».proof.Proof.Gen.Kernel.Frame
import proofs.«161687_j6279242186980_2_alg».proof.Proof.Gen.KernelIdeal
import proofs.«161687_j6279242186980_2_alg».proof.Proof.Gen.KernelIdeal.Skeleton
import proofs.«161687_j6279242186980_2_alg».proof.Proof.Gen.KernelIdeal.Launch
import proofs.«161687_j6279242186980_2_alg».proof.Proof.Gen.KernelIdeal.Points
import proofs.«161687_j6279242186980_2_alg».proof.Proof.Gen.KernelIdeal.Frame
import proofs.«161687_j6279242186980_2_alg».proof.Proof.Gen.ReferenceIdeal
import proofs.«161687_j6279242186980_2_alg».proof.Proof.Gen.Pre_finite_inputs
import proofs.«161687_j6279242186980_2_alg».proof.Proof.Gen.ReferenceIdeal.Run
import proofs.«161687_j6279242186980_2_alg».proof.Proof.Gen.ReferenceIdeal.Read
import proofs.«161687_j6279242186980_2_alg».proof.Proof.KRun
import proofs.«161687_j6279242186980_2_alg».proof.Proof.Bridge
import Idealize.ShloMosaic.Adequacy
import Idealize.ShloMosaic.Init

noncomputable section

namespace Cert.Proof

open Idealize.ShloMosaic Idealize.SL.Sem

/-- The printed kernel program runs, without a fault, and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run and end with equal results: the kernel
    program's result array is the reference's last stage on the same arguments (`Bridge.value_eq`). -/
theorem algebraic : Cert.algebraic_KernelIdeal_ReferenceIdeal := by
  intro m ρ m' ρ' hpre hagree
  refine ⟨fun c => Cert.KernelIdeal.Gen.W4 m ρ c (Proc.devRef .tc Cert.KernelIdeal.main_v38), Cert.KernelIdeal.Run.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]
  exact (Cert.Proof.Bridge.value_eq m ρ c hpre).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
